-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S256 .f32) (main_arg6 : FVec F S256x512 .f32) (main_arg7 : FVec F S512 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x512 .f32 := Host.absf main_arg6
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S50000x128 .f32) (main_arg1 : IVec S2x400000 32) (main_arg2 : FVec F S128x128 .f32) (main_arg3 : FVec F S128 .f32) (main_arg4 : FVec F S128x256 .f32) (main_arg5 : FVec F S256 .f32) (main_arg6 : FVec F S256x512 .f32) (main_arg7 : FVec F S512 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_v13 main_v16
-- ==== Kernel.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S2000x128 : Shape := ⟨2, ![2000, 128]⟩
abbrev S450000x128 : Shape := ⟨2, ![450000, 128]⟩
abbrev S1x128 : Shape := ⟨2, ![1, 128]⟩
abbrev S50000x256 : Shape := ⟨2, ![50000, 256]⟩
abbrev S2000x256 : Shape := ⟨2, ![2000, 256]⟩
abbrev S450000x256 : Shape := ⟨2, ![450000, 256]⟩
abbrev S1x256 : Shape := ⟨2, ![1, 256]⟩
abbrev S50000x512 : Shape := ⟨2, ![50000, 512]⟩
abbrev S2000x512 : Shape := ⟨2, ![2000, 512]⟩
abbrev S450000x512 : Shape := ⟨2, ![450000, 512]⟩
abbrev S1x512 : Shape := ⟨2, ![1, 512]⟩

abbrev nBuf : Space → Nat
  | .hbm => 104
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S50000, .i32⟩
  | .hbm, ⟨13, _⟩ => ⟨S450000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S450000, .i32⟩
  | .hbm, ⟨27, _⟩ => ⟨S450000, .i1⟩
  | .hbm, ⟨28, _⟩ => ⟨S_, .i32⟩
  | .hbm, ⟨29, _⟩ => ⟨S450000, .i32⟩
  | .hbm, ⟨30, _⟩ => ⟨S450000, .i32⟩
  | .hbm, ⟨31, _⟩ => ⟨S450000, .i32⟩
  | .hbm, ⟨32, _⟩ => ⟨S450000x1, .i32⟩
  | .hbm, ⟨33, _⟩ => ⟨S450000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S450000, .f32⟩
  | .hbm, ⟨44, _⟩ => ⟨S128x128, .bf16⟩
  | .hbm, ⟨45, _⟩ => ⟨S50000x128, .f32⟩
  | .hbm, ⟨46, _⟩ => ⟨S450000x1, .f32⟩
  | .hbm, ⟨47, _⟩ => ⟨S_, .i32⟩
  | .hbm, ⟨48, _⟩ => ⟨S450000, .i32⟩
  | .hbm, ⟨49, _⟩ => ⟨S450000, .i1⟩
  | .hbm, ⟨50, _⟩ => ⟨S_, .i32⟩
  | .hbm, ⟨51, _⟩ => ⟨S450000, .i32⟩
  | .hbm, ⟨52, _⟩ => ⟨S450000, .i32⟩
  | .hbm, ⟨53, _⟩ => ⟨S450000, .i32⟩
  | .hbm, ⟨54, _⟩ => ⟨S450000x1, .i32⟩
  | .hbm, ⟨55, _⟩ => ⟨S450000x128, .f32⟩
  | .hbm, ⟨56, _⟩ => ⟨S450000x128, .f32⟩
  | .hbm, ⟨57, _⟩ => ⟨S450000x128, .f32⟩
  | .hbm, ⟨58, _⟩ => ⟨S_, .f32⟩
  | .hbm, ⟨59, _⟩ => ⟨S50000x128, .f32⟩
  | .hbm, ⟨60, _⟩ => ⟨S450000x1, .i32⟩
  | .hbm, ⟨61, _⟩ => ⟨S50000x128, .f32⟩
  | .hbm, ⟨62, _⟩ => ⟨S1x128, .f32⟩
  | .hbm, ⟨63, _⟩ => ⟨S50000x128, .bf16⟩
  | .hbm, ⟨64, _⟩ => ⟨S128x256, .bf16⟩
  | .hbm, ⟨65, _⟩ => ⟨S50000x256, .f32⟩
  | .hbm, ⟨66, _⟩ => ⟨S450000x1, .f32⟩
  | .hbm, ⟨67, _⟩ => ⟨S_, .i32⟩
  | .hbm, ⟨68, _⟩ => ⟨S450000, .i32⟩
  | .hbm, ⟨69, _⟩ => ⟨S450000, .i1⟩
  | .hbm, ⟨70, _⟩ => ⟨S_, .i32⟩
  | .hbm, ⟨71, _⟩ => ⟨S450000, .i32⟩
  | .hbm, ⟨72, _⟩ => ⟨S450000, .i32⟩
  | .hbm, ⟨73, _⟩ => ⟨S450000, .i32⟩
  | .hbm, ⟨74, _⟩ => ⟨S450000x1, .i32⟩
  | .hbm, ⟨75, _⟩ => ⟨S450000x256, .f32⟩
  | .hbm, ⟨76, _⟩ => ⟨S450000x256, .f32⟩
  | .hbm, ⟨77, _⟩ => ⟨S450000x256, .f32⟩
  | .hbm, ⟨78, _⟩ => ⟨S_, .f32⟩
  | .hbm, ⟨79, _⟩ => ⟨S50000x256, .f32⟩
  | .hbm, ⟨80, _⟩ => ⟨S450000x1, .i32⟩
  | .hbm, ⟨81, _⟩ => ⟨S50000x256, .f32⟩
  | .hbm, ⟨82, _⟩ => ⟨S1x256, .f32⟩
  | .hbm, ⟨83, _⟩ => ⟨S50000x256, .bf16⟩
  | .hbm, ⟨84, _⟩ => ⟨S256x512, .bf16⟩
  | .hbm, ⟨85, _⟩ => ⟨S50000x512, .f32⟩
  | .hbm, ⟨86, _⟩ => ⟨S450000x1, .f32⟩
  | .hbm, ⟨87, _⟩ => ⟨S_, .i32⟩
  | .hbm, ⟨88, _⟩ => ⟨S450000, .i32⟩
  | .hbm, ⟨89, _⟩ => ⟨S450000, .i1⟩
  | .hbm, ⟨90, _⟩ => ⟨S_, .i32⟩
  | .hbm, ⟨91, _⟩ => ⟨S450000, .i32⟩
  | .hbm, ⟨92, _⟩ => ⟨S450000, .i32⟩
  | .hbm, ⟨93, _⟩ => ⟨S450000, .i32⟩
  | .hbm, ⟨94, _⟩ => ⟨S450000x1, .i32⟩
  | .hbm, ⟨95, _⟩ => ⟨S450000x512, .f32⟩
  | .hbm, ⟨96, _⟩ => ⟨S450000x512, .f32⟩
  | .hbm, ⟨97, _⟩ => ⟨S450000x512, .f32⟩
  | .hbm, ⟨98, _⟩ => ⟨S_, .f32⟩
  | .hbm, ⟨99, _⟩ => ⟨S50000x512, .f32⟩
  | .hbm, ⟨100, _⟩ => ⟨S450000x1, .i32⟩
  | .hbm, ⟨101, _⟩ => ⟨S50000x512, .f32⟩
  | .hbm, ⟨102, _⟩ => ⟨S1x512, .f32⟩
  | .hbm, ⟨103, _⟩ => ⟨S50000x512, .f32⟩
  | .local _ .vmem, ⟨0, _⟩ => ⟨S2000x128, .f32⟩
  | .local _ .vmem, ⟨1, _⟩ => ⟨S2000x128, .f32⟩
  | .local _ .vmem, ⟨2, _⟩ => ⟨S128x128, .bf16⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .bf16⟩
  | .local _ .vmem, ⟨9, _⟩ => ⟨S2000x128, .bf16⟩
  | .local _ .vmem, ⟨10, _⟩ => ⟨S2000x128, .bf16⟩
  | .local _ .vmem, ⟨11, _⟩ => ⟨S2000x128, .bf16⟩
  | .local _ .vmem, ⟨12, _⟩ => ⟨S128x256, .bf16⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S1x256, .f32⟩
  | .local _ .vmem, ⟨18, _⟩ => ⟨S2000x256, .bf16⟩
  | .local _ .vmem, ⟨19, _⟩ => ⟨S2000x256, .bf16⟩
  | .local _ .vmem, ⟨20, _⟩ => ⟨S2000x256, .bf16⟩
  | .local _ .vmem, ⟨21, _⟩ => ⟨S2000x256, .bf16⟩
  | .local _ .vmem, ⟨22, _⟩ => ⟨S256x512, .bf16⟩
  | .local _ .vmem, ⟨23, _⟩ => ⟨S2000x512, .f32⟩
  | .local _ .vmem, ⟨24, _⟩ => ⟨S2000x512, .f32⟩
  | .local _ .vmem, ⟨25, _⟩ => ⟨S2000x512, .f32⟩
  | .local _ .vmem, ⟨26, _⟩ => ⟨S2000x512, .f32⟩
  | .local _ .vmem, ⟨27, _⟩ => ⟨S1x512, .f32⟩
  | .local _ .vmem, ⟨28, _⟩ => ⟨S2000x512, .f32⟩
  | .local _ .vmem, ⟨29, _⟩ => ⟨S2000x512, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c_8 : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_c_11 : Ref sig .tc := ⟨.hbm, 87, rfl⟩
abbrev main_v66 : Ref sig .tc := ⟨.hbm, 88, rfl⟩
abbrev main_v67 : Ref sig .tc := ⟨.hbm, 89, rfl⟩
abbrev main_c_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x512 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x512 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x512 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  packedbf16_S2000x128_S2000x128_0_0 : (Rect.unit (s := S2000x128) ![0, 0] S2000x128.size inb_S2000x128_S2000x128_0_0).PackedRows (EltTy.packing .bf16)
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2000x256_S2000x256_0_0 : ∀ a, (![0, 0] : Fin 2 → Nat) a + S2000x256.size a ≤ S2000x256.size a
  h_S2000x256 : 0 < S2000x256.numel
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x512_S2000x512_0_0 : ∀ a, (![0, 0] : Fin 2 → Nat) a + S2000x512.size a ≤ S2000x512.size a
  h_S2000x512 : 0 < S2000x512.numel
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S2000x128_S128x128_S2000x128_1_0_0_1_n_n_wf : DotDims.WF S2000x128 S128x128 S2000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S2000x128_S128x256_S2000x256_1_0_0_1_n_n_wf : DotDims.WF S2000x128 S128x256 S2000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S2000x256_S256x512_S2000x512_1_0_0_1_n_n_wf : DotDims.WF S2000x256 S256x512 S2000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .bf16 = 32 ∨ (Rect.block (s := S50000x128) S2000x128.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .bf16 = 32 ∨ (Rect.block (s := S50000x128) S2000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .bf16 = 32 ∨ (Rect.block (s := S128x256) S128x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .bf16 = 32 ∨ (Rect.block (s := S50000x256) S2000x256.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .bf16 = 32 ∨ (Rect.block (s := S50000x256) S2000x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x512.size a ≤ S256x512.size a
  hwx4_1 : ∀ i : grid4.Coords, EltTy.bits .bf16 = 32 ∨ (Rect.block (s := S256x512) S256x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x512.size a ≤ S50000x512.size a
  hwx4_2 : ∀ i : grid4.Coords, EltTy.bits .f32 = 32 ∨ (Rect.block (s := S50000x512) S2000x512.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x512.size a ≤ S50000x512.size a
  hwx5_0 : ∀ i : grid5.Coords, EltTy.bits .f32 = 32 ∨ (Rect.block (s := S50000x512) S2000x512.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x512.size a ≤ S1x512.size a
  hwx5_1 : ∀ i : grid5.Coords, EltTy.bits .f32 = 32 ∨ (Rect.block (s := S1x512) S1x512.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x512.size a ≤ S50000x512.size a
  hwx5_2 : ∀ i : grid5.Coords, EltTy.bits .f32 = 32 ∨ (Rect.block (s := S50000x512) S2000x512.size (cc5_transform_2 i) (hinb5_2 i)).WholeWords (EltTy.packing .f32)

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S2000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v63) S256x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S2000x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S2000x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x512.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S2000x512.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x400000 : Shape := ⟨2, ![2, 400000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x400000 : Shape := ⟨2, ![1, 400000]⟩
abbrev S400000 : Shape := ⟨1, ![400000]⟩
abbrev S50000 : Shape := ⟨1, ![50000]⟩
abbrev S450000 : Shape := ⟨1, ![450000]⟩
abbrev S_ : Shape := ⟨0, ![]⟩
abbrev S450000x1 : Shape := ⟨2, ![450000, 1]⟩
abbrev S450000x128 : Shape := ⟨2, ![450000, 128]⟩
abbrev S1x128 : Shape := ⟨2, ![1, 128]⟩
abbrev S50000x256 : Shape := ⟨2, ![50000, 256]⟩
abbrev S450000x256 : Shape := ⟨2, ![450000, 256]⟩
abbrev S1x256 : Shape := ⟨2, ![1, 256]⟩
abbrev S50000x512 : Shape := ⟨2, ![50000, 512]⟩
abbrev S450000x512 : Shape := ⟨2, ![450000, 512]⟩
abbrev S1x512 : Shape := ⟨2, ![1, 512]⟩

abbrev nBuf : Space → Nat
  | .hbm => 113
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x400000, .i32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S256, .f32⟩
  | .hbm, ⟨6, _⟩ => ⟨S256x512, .f32⟩
  | .hbm, ⟨7, _⟩ => ⟨S512, .f32⟩
  | .hbm, ⟨8, _⟩ => ⟨S1x400000, .i32⟩
  | .hbm, ⟨9, _⟩ => ⟨S400000, .i32⟩
  | .hbm, ⟨10, _⟩ => ⟨S1x400000, .i32⟩
  | .hbm, ⟨11, _⟩ => ⟨S400000, .i32⟩
  | .hbm, ⟨12, _⟩ => ⟨S50000, .i32⟩
  | .hbm, ⟨13, _⟩ => ⟨S450000, .i32⟩
  | .hbm, ⟨14, _⟩ => ⟨S450000, .i32⟩
  | .hbm, ⟨15, _⟩ => ⟨S_, .f32⟩
  | .hbm, ⟨16, _⟩ => ⟨S450000, .f32⟩
  | .hbm, ⟨17, _⟩ => ⟨S_, .f32⟩
  | .hbm, ⟨18, _⟩ => ⟨S50000, .f32⟩
  | .hbm, ⟨19, _⟩ => ⟨S450000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S450000, .i32⟩
  | .hbm, ⟨27, _⟩ => ⟨S450000, .i1⟩
  | .hbm, ⟨28, _⟩ => ⟨S_, .i32⟩
  | .hbm, ⟨29, _⟩ => ⟨S450000, .i32⟩
  | .hbm, ⟨30, _⟩ => ⟨S450000, .i32⟩
  | .hbm, ⟨31, _⟩ => ⟨S450000, .i32⟩
  | .hbm, ⟨32, _⟩ => ⟨S450000x1, .i32⟩
  | .hbm, ⟨33, _⟩ => ⟨S450000, .f32⟩
  | .hbm, ⟨34, _⟩ => ⟨S_, .i32⟩
  | .hbm, ⟨35, _⟩ => ⟨S450000, .i32⟩
  | .hbm, ⟨36, _⟩ => ⟨S450000, .i1⟩
  | .hbm, ⟨37, _⟩ => ⟨S_, .i32⟩
  | .hbm, ⟨38, _⟩ => ⟨S450000, .i32⟩
  | .hbm, ⟨39, _⟩ => ⟨S450000, .i32⟩
  | .hbm, ⟨40, _⟩ => ⟨S450000, .i32⟩
  | .hbm, ⟨41, _⟩ => ⟨S450000x1, .i32⟩
  | .hbm, ⟨42, _⟩ => ⟨S450000, .f32⟩
  | .hbm, ⟨43, _⟩ => ⟨S450000, .f32⟩
  | .hbm, ⟨44, _⟩ => ⟨S50000x128, .f32⟩
  | .hbm, ⟨45, _⟩ => ⟨S450000x1, .f32⟩
  | .hbm, ⟨46, _⟩ => ⟨S_, .i32⟩
  | .hbm, ⟨47, _⟩ => ⟨S450000, .i32⟩
  | .hbm, ⟨48, _⟩ => ⟨S450000, .i1⟩
  | .hbm, ⟨49, _⟩ => ⟨S_, .i32⟩
  | .hbm, ⟨50, _⟩ => ⟨S450000, .i32⟩
  | .hbm, ⟨51, _⟩ => ⟨S450000, .i32⟩
  | .hbm, ⟨52, _⟩ => ⟨S450000, .i32⟩
  | .hbm, ⟨53, _⟩ => ⟨S450000x1, .i32⟩
  | .hbm, ⟨54, _⟩ => ⟨S450000x128, .f32⟩
  | .hbm, ⟨55, _⟩ => ⟨S450000x128, .f32⟩
  | .hbm, ⟨56, _⟩ => ⟨S450000x128, .f32⟩
  | .hbm, ⟨57, _⟩ => ⟨S_, .f32⟩
  | .hbm, ⟨58, _⟩ => ⟨S50000x128, .f32⟩
  | .hbm, ⟨59, _⟩ => ⟨S450000x1, .i32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | .hbm, ⟨64, _⟩ => ⟨S_, .f32⟩
  | .hbm, ⟨65, _⟩ => ⟨S50000x128, .f32⟩
  | .hbm, ⟨66, _⟩ => ⟨S50000x128, .f32⟩
  | .hbm, ⟨67, _⟩ => ⟨S50000x256, .f32⟩
  | .hbm, ⟨68, _⟩ => ⟨S450000x1, .f32⟩
  | .hbm, ⟨69, _⟩ => ⟨S_, .i32⟩
  | .hbm, ⟨70, _⟩ => ⟨S450000, .i32⟩
  | .hbm, ⟨71, _⟩ => ⟨S450000, .i1⟩
  | .hbm, ⟨72, _⟩ => ⟨S_, .i32⟩
  | .hbm, ⟨73, _⟩ => ⟨S450000, .i32⟩
  | .hbm, ⟨74, _⟩ => ⟨S450000, .i32⟩
  | .hbm, ⟨75, _⟩ => ⟨S450000, .i32⟩
  | .hbm, ⟨76, _⟩ => ⟨S450000x1, .i32⟩
  | .hbm, ⟨77, _⟩ => ⟨S450000x256, .f32⟩
  | .hbm, ⟨78, _⟩ => ⟨S450000x256, .f32⟩
  | .hbm, ⟨79, _⟩ => ⟨S450000x256, .f32⟩
  | .hbm, ⟨80, _⟩ => ⟨S_, .f32⟩
  | .hbm, ⟨81, _⟩ => ⟨S50000x256, .f32⟩
  | .hbm, ⟨82, _⟩ => ⟨S450000x1, .i32⟩
  | .hbm, ⟨83, _⟩ => ⟨S50000x256, .f32⟩
  | .hbm, ⟨84, _⟩ => ⟨S1x256, .f32⟩
  | .hbm, ⟨85, _⟩ => ⟨S50000x256, .f32⟩
  | .hbm, ⟨86, _⟩ => ⟨S50000x256, .f32⟩
  | .hbm, ⟨87, _⟩ => ⟨S_, .f32⟩
  | .hbm, ⟨88, _⟩ => ⟨S50000x256, .f32⟩
  | .hbm, ⟨89, _⟩ => ⟨S50000x256, .f32⟩
  | .hbm, ⟨90, _⟩ => ⟨S50000x512, .f32⟩
  | .hbm, ⟨91, _⟩ => ⟨S450000x1, .f32⟩
  | .hbm, ⟨92, _⟩ => ⟨S_, .i32⟩
  | .hbm, ⟨93, _⟩ => ⟨S450000, .i32⟩
  | .hbm, ⟨94, _⟩ => ⟨S450000, .i1⟩
  | .hbm, ⟨95, _⟩ => ⟨S_, .i32⟩
  | .hbm, ⟨96, _⟩ => ⟨S450000, .i32⟩
  | .hbm, ⟨97, _⟩ => ⟨S450000, .i32⟩
  | .hbm, ⟨98, _⟩ => ⟨S450000, .i32⟩
  | .hbm, ⟨99, _⟩ => ⟨S450000x1, .i32⟩
  | .hbm, ⟨100, _⟩ => ⟨S450000x512, .f32⟩
  | .hbm, ⟨101, _⟩ => ⟨S450000x512, .f32⟩
  | .hbm, ⟨102, _⟩ => ⟨S450000x512, .f32⟩
  | .hbm, ⟨103, _⟩ => ⟨S_, .f32⟩
  | .hbm, ⟨104, _⟩ => ⟨S50000x512, .f32⟩
  | .hbm, ⟨105, _⟩ => ⟨S450000x1, .i32⟩
  | .hbm, ⟨106, _⟩ => ⟨S50000x512, .f32⟩
  | .hbm, ⟨107, _⟩ => ⟨S1x512, .f32⟩
  | .hbm, ⟨108, _⟩ => ⟨S50000x512, .f32⟩
  | .hbm, ⟨109, _⟩ => ⟨S50000x512, .f32⟩
  | .hbm, ⟨110, _⟩ => ⟨S_, .f32⟩
  | .hbm, ⟨111, _⟩ => ⟨S50000x512, .f32⟩
  | .hbm, ⟨112, _⟩ => ⟨S50000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c : Ref sig .tc := ⟨.hbm, 25, rfl⟩
abbrev main_v14 : Ref sig .tc := ⟨.hbm, 26, rfl⟩
abbrev main_v15 : Ref sig .tc := ⟨.hbm, 27, rfl⟩
abbrev main_c_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_call0_cst : Ref sig .tc := ⟨.hbm, 64, rfl⟩
abbrev main_call0_v0 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_8 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_call1_cst : Ref sig .tc := ⟨.hbm, 87, rfl⟩
abbrev main_call1_v0 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_v67 : Ref sig .tc := ⟨.hbm, 93, rfl⟩
abbrev main_v68 : Ref sig .tc := ⟨.hbm, 94, rfl⟩
abbrev main_c_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_13 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_call2_cst : Ref sig .tc := ⟨.hbm, 110, rfl⟩
abbrev main_call2_v0 : Ref sig .tc := ⟨.hbm, 111, rfl⟩
abbrev main_v82 : Ref sig .tc := ⟨.hbm, 112, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  concatenates_S400000_S50000_S450000_d0 : Shape.Concatenates [S400000, S50000] S450000 0
  bcast_S_S450000 : S_.BroadcastsInDim S450000 (![] : Fin 0 → Fin S450000.rank)
  bcast_S_S50000 : S_.BroadcastsInDim S50000 (![] : Fin 0 → Fin S50000.rank)
  bcast_S450000_S450000x1_0 : S450000.BroadcastsInDim S450000x1 (![0] : Fin 1 → Fin S450000x1.rank)
  bcast_S450000x1_S450000x128_0_1 : S450000x1.BroadcastsInDim S450000x128 (![0, 1] : Fin 2 → Fin S450000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S450000x1_S450000x256_0_1 : S450000x1.BroadcastsInDim S450000x256 (![0, 1] : Fin 2 → Fin S450000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S450000x1_S450000x512_0_1 : S450000x1.BroadcastsInDim S450000x512 (![0, 1] : Fin 2 → Fin S450000x512.rank)
  bcast_S_S50000x512 : S_.BroadcastsInDim S50000x512 (![] : Fin 0 → Fin S50000x512.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  scatter_S50000_S450000x1_S450000_n_0_0_1_wf : ScatterDims.WF S50000 S450000x1 S450000 [] [0] [0] 1
  gather_S50000_S450000x1_S450000_n_0_n_n_0_1_1_wf : GatherDims.WF S50000 S450000x1 S450000 [] [0] [] [0] [] 1 ![1]
  dot_S50000x128_S128x128_S50000x128_1_0_0_1_n_n_wf : DotDims.WF S50000x128 S128x128 S50000x128 [1] [0] [0] [1] [] []
  gather_S50000x128_S450000x1_S450000x128_1_0_n_n_0_1_1128_wf : GatherDims.WF S50000x128 S450000x1 S450000x128 [1] [0] [] [0] [] 1 ![1, 128]
  scatter_S50000x128_S450000x1_S450000x128_1_0_0_1_wf : ScatterDims.WF S50000x128 S450000x1 S450000x128 [1] [0] [0] 1
  dot_S50000x128_S128x256_S50000x256_1_0_0_1_n_n_wf : DotDims.WF S50000x128 S128x256 S50000x256 [1] [0] [0] [1] [] []
  gather_S50000x256_S450000x1_S450000x256_1_0_n_n_0_1_1256_wf : GatherDims.WF S50000x256 S450000x1 S450000x256 [1] [0] [] [0] [] 1 ![1, 256]
  scatter_S50000x256_S450000x1_S450000x256_1_0_0_1_wf : ScatterDims.WF S50000x256 S450000x1 S450000x256 [1] [0] [0] 1
  dot_S50000x256_S256x512_S50000x512_1_0_0_1_n_n_wf : DotDims.WF S50000x256 S256x512 S50000x512 [1] [0] [0] [1] [] []
  gather_S50000x512_S450000x1_S450000x512_1_0_n_n_0_1_1512_wf : GatherDims.WF S50000x512 S450000x1 S450000x512 [1] [0] [] [0] [] 1 ![1, 512]
  scatter_S50000x512_S450000x1_S450000x512_1_0_0_1_wf : ScatterDims.WF S50000x512 S450000x1 S450000x512 [1] [0] [0] 1

variable [Facts₀]

def scatter_S50000_S450000x1_S450000_n_0_0_1 : ScatterDims S50000 S450000x1 S450000 where
  updateWindowDims := []
  insertedWindowDims := [0]
  scatterDimsToOperandDims := [0]
  indexVectorDim := 1
  wf := scatter_S50000_S450000x1_S450000_n_0_0_1_wf
def gather_S50000_S450000x1_S450000_n_0_n_n_0_1_1 : GatherDims S50000 S450000x1 S450000 where
  offsetDims := []
  collapsedSliceDims := [0]
  operandBatchingDims := []
  startIndicesBatchingDims := []
  startIndexMap := [0]
  indexVectorDim := 1
  sliceSizes := ![1]
  wf := gather_S50000_S450000x1_S450000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S450000x1_S450000x128_1_0_n_n_0_1_1128 : GatherDims S50000x128 S450000x1 S450000x128 where
  offsetDims := [1]
  collapsedSliceDims := [0]
  operandBatchingDims := []
  startIndicesBatchingDims := []
  startIndexMap := [0]
  indexVectorDim := 1
  sliceSizes := ![1, 128]
  wf := gather_S50000x128_S450000x1_S450000x128_1_0_n_n_0_1_1128_wf
def scatter_S50000x128_S450000x1_S450000x128_1_0_0_1 : ScatterDims S50000x128 S450000x1 S450000x128 where
  updateWindowDims := [1]
  insertedWindowDims := [0]
  scatterDimsToOperandDims := [0]
  indexVectorDim := 1
  wf := scatter_S50000x128_S450000x1_S450000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S450000x1_S450000x256_1_0_n_n_0_1_1256 : GatherDims S50000x256 S450000x1 S450000x256 where
  offsetDims := [1]
  collapsedSliceDims := [0]
  operandBatchingDims := []
  startIndicesBatchingDims := []
  startIndexMap := [0]
  indexVectorDim := 1
  sliceSizes := ![1, 256]
  wf := gather_S50000x256_S450000x1_S450000x256_1_0_n_n_0_1_1256_wf
def scatter_S50000x256_S450000x1_S450000x256_1_0_0_1 : ScatterDims S50000x256 S450000x1 S450000x256 where
  updateWindowDims := [1]
  insertedWindowDims := [0]
  scatterDimsToOperandDims := [0]
  indexVectorDim := 1
  wf := scatter_S50000x256_S450000x1_S450000x256_1_0_0_1_wf
def dot_S50000x256_S256x512_S50000x512_1_0_0_1_n_n : DotDims S50000x256 S256x512 S50000x512 where
  lhsContracting := [1]
  rhsContracting := [0]
  lhsNonContracting := [0]
  rhsNonContracting := [1]
  lhsBatch := []
  rhsBatch := []
  wf := dot_S50000x256_S256x512_S50000x512_1_0_0_1_n_n_wf
def gather_S50000x512_S450000x1_S450000x512_1_0_n_n_0_1_1512 : GatherDims S50000x512 S450000x1 S450000x512 where
  offsetDims := [1]
  collapsedSliceDims := [0]
  operandBatchingDims := []
  startIndicesBatchingDims := []
  startIndexMap := [0]
  indexVectorDim := 1
  sliceSizes := ![1, 512]
  wf := gather_S50000x512_S450000x1_S450000x512_1_0_n_n_0_1_1512_wf
def scatter_S50000x512_S450000x1_S450000x512_1_0_0_1 : ScatterDims S50000x512 S450000x1 S450000x512 where
  updateWindowDims := [1]
  insertedWindowDims := [0]
  scatterDimsToOperandDims := [0]
  indexVectorDim := 1
  wf := scatter_S50000x512_S450000x1_S450000x512_1_0_0_1_wf

class Facts : Prop extends Facts₀ where

variable [Facts]
-- ==== Proof.KernelRun.lean ====
/-
  The idealized kernel's run, with its result named.

  The program is six tiled stages (three row-tiled matrix products and three row-tiled bias-and-clamp
  stages) with stretches of host operations before each of them.  Running it from a memory `m` ends, on every
  core, with the result array holding what the LAST stage's write-backs leave in it — the contents `W12` of the
  fold of the program's segments over the launch memory, read at the result buffer — and with every argument
  array as launched.  The fold itself (each host stretch applied to the contents it starts from, each stage's
  arrays replaced by the blocks its grid points write back) is read one segment at a time elsewhere; here
  only the run is stated, once, so that the value of the result can be named.
-/
import proofs.«150194_j37409165148770_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array then holds the
    last segment boundary's contents at the result buffer, and the eight argument arrays are as launched. -/
theorem run_named : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.RunValue

end
-- ==== Proof.Carry.lean ====
/-
  Buffers that the idealized kernel's segments leave alone.

  The program's buffer contents are followed from segment to segment: `W0` at launch, then alternately a stretch of
  host operations (`W1`, `W3`, …: each operation rewrites its own result buffer and nothing else) and a tiled stage
  (`W2`, `W4`, …: the stage's result array is replaced, every other buffer kept).  Three buffers computed by the first
  stretch — the edge sources with the self-loops appended, the edge targets with the self-loops appended, and the
  symmetric normalisation weight of every edge — are read again by each layer's aggregation, and each layer's bias and
  weight matrix is an argument read only when its layer is reached.  None of these is ever written after it is made,
  so at the boundary where it is read it still holds what it held when it was made (for an argument: what the launch
  memory holds).  Each lemma below is one such walk back, one segment at a time: through a stage because the buffer is
  not one of the stage's arrays, through a host stretch because no operation of the stretch has it as its result.
-/
import proofs.«150194_j37409165148770_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## Argument 3, up to the boundary where it is read -/

theorem arg3_step1 : W1 m ρ c (Proc.devRef .tc main_arg3) = W0 m ρ c (Proc.devRef .tc main_arg3) := by
  show StableHlo.after hostOps0 (W0 m ρ c) (Proc.devRef .tc main_arg3) = _
  after_results_simp

theorem arg3_step2 : W2 m ρ c (Proc.devRef .tc main_arg3) = W1 m ρ c (Proc.devRef .tc main_arg3) :=
  W2_of_ne m ρ c main_arg3 (by decide)

/-- At boundary 2 argument 3 is as launched. -/
theorem arg3_at2 : W2 m ρ c (Proc.devRef .tc main_arg3) = m ((c : Thread nD τ).loc main_arg3) :=
  (arg3_step2 m ρ c).trans (arg3_step1 m ρ c)

/-! ## Argument 4, up to the boundary where it is read -/

theorem arg4_step1 : W1 m ρ c (Proc.devRef .tc main_arg4) = W0 m ρ c (Proc.devRef .tc main_arg4) := by
  show StableHlo.after hostOps0 (W0 m ρ c) (Proc.devRef .tc main_arg4) = _
  after_results_simp

theorem arg4_step2 : W2 m ρ c (Proc.devRef .tc main_arg4) = W1 m ρ c (Proc.devRef .tc main_arg4) :=
  W2_of_ne m ρ c main_arg4 (by decide)

theorem arg4_step3 : W3 m ρ c (Proc.devRef .tc main_arg4) = W2 m ρ c (Proc.devRef .tc main_arg4) := by
  show StableHlo.after hostOps1 (W2 m ρ c) (Proc.devRef .tc main_arg4) = _
  after_results_simp

theorem arg4_step4 : W4 m ρ c (Proc.devRef .tc main_arg4) = W3 m ρ c (Proc.devRef .tc main_arg4) :=
  W4_of_ne m ρ c main_arg4 (by decide)

/-- At boundary 4 argument 4 is as launched. -/
theorem arg4_at4 : W4 m ρ c (Proc.devRef .tc main_arg4) = m ((c : Thread nD τ).loc main_arg4) :=
  (arg4_step4 m ρ c).trans ((arg4_step3 m ρ c).trans ((arg4_step2 m ρ c).trans (arg4_step1 m ρ c)))

/-! ## Argument 5, up to the boundary where it is read -/

theorem arg5_step1 : W1 m ρ c (Proc.devRef .tc main_arg5) = W0 m ρ c (Proc.devRef .tc main_arg5) := by
  show StableHlo.after hostOps0 (W0 m ρ c) (Proc.devRef .tc main_arg5) = _
  after_results_simp

theorem arg5_step2 : W2 m ρ c (Proc.devRef .tc main_arg5) = W1 m ρ c (Proc.devRef .tc main_arg5) :=
  W2_of_ne m ρ c main_arg5 (by decide)

theorem arg5_step3 : W3 m ρ c (Proc.devRef .tc main_arg5) = W2 m ρ c (Proc.devRef .tc main_arg5) := by
  show StableHlo.after hostOps1 (W2 m ρ c) (Proc.devRef .tc main_arg5) = _
  after_results_simp

theorem arg5_step4 : W4 m ρ c (Proc.devRef .tc main_arg5) = W3 m ρ c (Proc.devRef .tc main_arg5) :=
  W4_of_ne m ρ c main_arg5 (by decide)

theorem arg5_step5 : W5 m ρ c (Proc.devRef .tc main_arg5) = W4 m ρ c (Proc.devRef .tc main_arg5) := by
  show StableHlo.after hostOps2 (W4 m ρ c) (Proc.devRef .tc main_arg5) = _
  after_results_simp

theorem arg5_step6 : W6 m ρ c (Proc.devRef .tc main_arg5) = W5 m ρ c (Proc.devRef .tc main_arg5) :=
  W6_of_ne m ρ c main_arg5 (by decide)

/-- At boundary 6 argument 5 is as launched. -/
theorem arg5_at6 : W6 m ρ c (Proc.devRef .tc main_arg5) = m ((c : Thread nD τ).loc main_arg5) :=
  (arg5_step6 m ρ c).trans ((arg5_step5 m ρ c).trans ((arg5_step4 m ρ c).trans ((arg5_step3 m ρ c).trans ((arg5_step2 m ρ c).trans (arg5_step1 m ρ c)))))

/-! ## Argument 6, up to the boundary where it is read -/

theorem arg6_step1 : W1 m ρ c (Proc.devRef .tc main_arg6) = W0 m ρ c (Proc.devRef .tc main_arg6) := by
  show StableHlo.after hostOps0 (W0 m ρ c) (Proc.devRef .tc main_arg6) = _
  after_results_simp

theorem arg6_step2 : W2 m ρ c (Proc.devRef .tc main_arg6) = W1 m ρ c (Proc.devRef .tc main_arg6) :=
  W2_of_ne m ρ c main_arg6 (by decide)

theorem arg6_step3 : W3 m ρ c (Proc.devRef .tc main_arg6) = W2 m ρ c (Proc.devRef .tc main_arg6) := by
  show StableHlo.after hostOps1 (W2 m ρ c) (Proc.devRef .tc main_arg6) = _
  after_results_simp

theorem arg6_step4 : W4 m ρ c (Proc.devRef .tc main_arg6) = W3 m ρ c (Proc.devRef .tc main_arg6) :=
  W4_of_ne m ρ c main_arg6 (by decide)

theorem arg6_step5 : W5 m ρ c (Proc.devRef .tc main_arg6) = W4 m ρ c (Proc.devRef .tc main_arg6) := by
  show StableHlo.after hostOps2 (W4 m ρ c) (Proc.devRef .tc main_arg6) = _
  after_results_simp

theorem arg6_step6 : W6 m ρ c (Proc.devRef .tc main_arg6) = W5 m ρ c (Proc.devRef .tc main_arg6) :=
  W6_of_ne m ρ c main_arg6 (by decide)

theorem arg6_step7 : W7 m ρ c (Proc.devRef .tc main_arg6) = W6 m ρ c (Proc.devRef .tc main_arg6) := by
  show StableHlo.after hostOps3 (W6 m ρ c) (Proc.devRef .tc main_arg6) = _
  after_results_simp

theorem arg6_step8 : W8 m ρ c (Proc.devRef .tc main_arg6) = W7 m ρ c (Proc.devRef .tc main_arg6) :=
  W8_of_ne m ρ c main_arg6 (by decide)

/-- At boundary 8 argument 6 is as launched. -/
theorem arg6_at8 : W8 m ρ c (Proc.devRef .tc main_arg6) = m ((c : Thread nD τ).loc main_arg6) :=
  (arg6_step8 m ρ c).trans ((arg6_step7 m ρ c).trans ((arg6_step6 m ρ c).trans ((arg6_step5 m ρ c).trans ((arg6_step4 m ρ c).trans ((arg6_step3 m ρ c).trans ((arg6_step2 m ρ c).trans (arg6_step1 m ρ c)))))))

/-! ## Argument 7, up to the boundary where it is read -/

theorem arg7_step1 : W1 m ρ c (Proc.devRef .tc main_arg7) = W0 m ρ c (Proc.devRef .tc main_arg7) := by
  show StableHlo.after hostOps0 (W0 m ρ c) (Proc.devRef .tc main_arg7) = _
  after_results_simp

theorem arg7_step2 : W2 m ρ c (Proc.devRef .tc main_arg7) = W1 m ρ c (Proc.devRef .tc main_arg7) :=
  W2_of_ne m ρ c main_arg7 (by decide)

theorem arg7_step3 : W3 m ρ c (Proc.devRef .tc main_arg7) = W2 m ρ c (Proc.devRef .tc main_arg7) := by
  show StableHlo.after hostOps1 (W2 m ρ c) (Proc.devRef .tc main_arg7) = _
  after_results_simp

theorem arg7_step4 : W4 m ρ c (Proc.devRef .tc main_arg7) = W3 m ρ c (Proc.devRef .tc main_arg7) :=
  W4_of_ne m ρ c main_arg7 (by decide)

theorem arg7_step5 : W5 m ρ c (Proc.devRef .tc main_arg7) = W4 m ρ c (Proc.devRef .tc main_arg7) := by
  show StableHlo.after hostOps2 (W4 m ρ c) (Proc.devRef .tc main_arg7) = _
  after_results_simp

theorem arg7_step6 : W6 m ρ c (Proc.devRef .tc main_arg7) = W5 m ρ c (Proc.devRef .tc main_arg7) :=
  W6_of_ne m ρ c main_arg7 (by decide)

theorem arg7_step7 : W7 m ρ c (Proc.devRef .tc main_arg7) = W6 m ρ c (Proc.devRef .tc main_arg7) := by
  show StableHlo.after hostOps3 (W6 m ρ c) (Proc.devRef .tc main_arg7) = _
  after_results_simp

theorem arg7_step8 : W8 m ρ c (Proc.devRef .tc main_arg7) = W7 m ρ c (Proc.devRef .tc main_arg7) :=
  W8_of_ne m ρ c main_arg7 (by decide)

theorem arg7_step9 : W9 m ρ c (Proc.devRef .tc main_arg7) = W8 m ρ c (Proc.devRef .tc main_arg7) := by
  show StableHlo.after hostOps4 (W8 m ρ c) (Proc.devRef .tc main_arg7) = _
  after_results_simp

theorem arg7_step10 : W10 m ρ c (Proc.devRef .tc main_arg7) = W9 m ρ c (Proc.devRef .tc main_arg7) :=
  W10_of_ne m ρ c main_arg7 (by decide)

/-- At boundary 10 argument 7 is as launched. -/
theorem arg7_at10 : W10 m ρ c (Proc.devRef .tc main_arg7) = m ((c : Thread nD τ).loc main_arg7) :=
  (arg7_step10 m ρ c).trans ((arg7_step9 m ρ c).trans ((arg7_step8 m ρ c).trans ((arg7_step7 m ρ c).trans ((arg7_step6 m ρ c).trans ((arg7_step5 m ρ c).trans ((arg7_step4 m ρ c).trans ((arg7_step3 m ρ c).trans ((arg7_step2 m ρ c).trans (arg7_step1 m ρ c)))))))))

/-! ## main_v5, from where it is made to each aggregation that reads it -/

theorem src_step2 : W2 m ρ c (Proc.devRef .tc main_v5) = W1 m ρ c (Proc.devRef .tc main_v5) :=
  W2_of_ne m ρ c main_v5 (by decide)

theorem src_step3 : W3 m ρ c (Proc.devRef .tc main_v5) = W2 m ρ c (Proc.devRef .tc main_v5) := by
  show StableHlo.after hostOps1 (W2 m ρ c) (Proc.devRef .tc main_v5) = _
  after_results_simp

theorem src_step4 : W4 m ρ c (Proc.devRef .tc main_v5) = W3 m ρ c (Proc.devRef .tc main_v5) :=
  W4_of_ne m ρ c main_v5 (by decide)

theorem src_step5 : W5 m ρ c (Proc.devRef .tc main_v5) = W4 m ρ c (Proc.devRef .tc main_v5) := by
  show StableHlo.after hostOps2 (W4 m ρ c) (Proc.devRef .tc main_v5) = _
  after_results_simp

theorem src_step6 : W6 m ρ c (Proc.devRef .tc main_v5) = W5 m ρ c (Proc.devRef .tc main_v5) :=
  W6_of_ne m ρ c main_v5 (by decide)

theorem src_step7 : W7 m ρ c (Proc.devRef .tc main_v5) = W6 m ρ c (Proc.devRef .tc main_v5) := by
  show StableHlo.after hostOps3 (W6 m ρ c) (Proc.devRef .tc main_v5) = _
  after_results_simp

theorem src_step8 : W8 m ρ c (Proc.devRef .tc main_v5) = W7 m ρ c (Proc.devRef .tc main_v5) :=
  W8_of_ne m ρ c main_v5 (by decide)

theorem src_step9 : W9 m ρ c (Proc.devRef .tc main_v5) = W8 m ρ c (Proc.devRef .tc main_v5) := by
  show StableHlo.after hostOps4 (W8 m ρ c) (Proc.devRef .tc main_v5) = _
  after_results_simp

theorem src_step10 : W10 m ρ c (Proc.devRef .tc main_v5) = W9 m ρ c (Proc.devRef .tc main_v5) :=
  W10_of_ne m ρ c main_v5 (by decide)

theorem src_at2 : W2 m ρ c (Proc.devRef .tc main_v5) = W1 m ρ c (Proc.devRef .tc main_v5) :=
  src_step2 m ρ c

theorem src_at6 : W6 m ρ c (Proc.devRef .tc main_v5) = W1 m ρ c (Proc.devRef .tc main_v5) :=
  (src_step6 m ρ c).trans ((src_step5 m ρ c).trans ((src_step4 m ρ c).trans ((src_step3 m ρ c).trans (src_step2 m ρ c))))

theorem src_at10 : W10 m ρ c (Proc.devRef .tc main_v5) = W1 m ρ c (Proc.devRef .tc main_v5) :=
  (src_step10 m ρ c).trans ((src_step9 m ρ c).trans ((src_step8 m ρ c).trans ((src_step7 m ρ c).trans ((src_step6 m ρ c).trans ((src_step5 m ρ c).trans ((src_step4 m ρ c).trans ((src_step3 m ρ c).trans (src_step2 m ρ c))))))))

/-! ## main_v6, from where it is made to each aggregation that reads it -/

theorem dst_step2 : W2 m ρ c (Proc.devRef .tc main_v6) = W1 m ρ c (Proc.devRef .tc main_v6) :=
  W2_of_ne m ρ c main_v6 (by decide)

theorem dst_step3 : W3 m ρ c (Proc.devRef .tc main_v6) = W2 m ρ c (Proc.devRef .tc main_v6) := by
  show StableHlo.after hostOps1 (W2 m ρ c) (Proc.devRef .tc main_v6) = _
  after_results_simp

theorem dst_step4 : W4 m ρ c (Proc.devRef .tc main_v6) = W3 m ρ c (Proc.devRef .tc main_v6) :=
  W4_of_ne m ρ c main_v6 (by decide)

theorem dst_step5 : W5 m ρ c (Proc.devRef .tc main_v6) = W4 m ρ c (Proc.devRef .tc main_v6) := by
  show StableHlo.after hostOps2 (W4 m ρ c) (Proc.devRef .tc main_v6) = _
  after_results_simp

theorem dst_step6 : W6 m ρ c (Proc.devRef .tc main_v6) = W5 m ρ c (Proc.devRef .tc main_v6) :=
  W6_of_ne m ρ c main_v6 (by decide)

theorem dst_step7 : W7 m ρ c (Proc.devRef .tc main_v6) = W6 m ρ c (Proc.devRef .tc main_v6) := by
  show StableHlo.after hostOps3 (W6 m ρ c) (Proc.devRef .tc main_v6) = _
  after_results_simp

theorem dst_step8 : W8 m ρ c (Proc.devRef .tc main_v6) = W7 m ρ c (Proc.devRef .tc main_v6) :=
  W8_of_ne m ρ c main_v6 (by decide)

theorem dst_step9 : W9 m ρ c (Proc.devRef .tc main_v6) = W8 m ρ c (Proc.devRef .tc main_v6) := by
  show StableHlo.after hostOps4 (W8 m ρ c) (Proc.devRef .tc main_v6) = _
  after_results_simp

theorem dst_step10 : W10 m ρ c (Proc.devRef .tc main_v6) = W9 m ρ c (Proc.devRef .tc main_v6) :=
  W10_of_ne m ρ c main_v6 (by decide)

theorem dst_at2 : W2 m ρ c (Proc.devRef .tc main_v6) = W1 m ρ c (Proc.devRef .tc main_v6) :=
  dst_step2 m ρ c

theorem dst_at6 : W6 m ρ c (Proc.devRef .tc main_v6) = W1 m ρ c (Proc.devRef .tc main_v6) :=
  (dst_step6 m ρ c).trans ((dst_step5 m ρ c).trans ((dst_step4 m ρ c).trans ((dst_step3 m ρ c).trans (dst_step2 m ρ c))))

theorem dst_at10 : W10 m ρ c (Proc.devRef .tc main_v6) = W1 m ρ c (Proc.devRef .tc main_v6) :=
  (dst_step10 m ρ c).trans ((dst_step9 m ρ c).trans ((dst_step8 m ρ c).trans ((dst_step7 m ρ c).trans ((dst_step6 m ρ c).trans ((dst_step5 m ρ c).trans ((dst_step4 m ρ c).trans ((dst_step3 m ρ c).trans (dst_step2 m ρ c))))))))

/-! ## main_v28, from where it is made to each aggregation that reads it -/

theorem nrm_step2 : W2 m ρ c (Proc.devRef .tc main_v28) = W1 m ρ c (Proc.devRef .tc main_v28) :=
  W2_of_ne m ρ c main_v28 (by decide)

theorem nrm_step3 : W3 m ρ c (Proc.devRef .tc main_v28) = W2 m ρ c (Proc.devRef .tc main_v28) := by
  show StableHlo.after hostOps1 (W2 m ρ c) (Proc.devRef .tc main_v28) = _
  after_results_simp

theorem nrm_step4 : W4 m ρ c (Proc.devRef .tc main_v28) = W3 m ρ c (Proc.devRef .tc main_v28) :=
  W4_of_ne m ρ c main_v28 (by decide)

theorem nrm_step5 : W5 m ρ c (Proc.devRef .tc main_v28) = W4 m ρ c (Proc.devRef .tc main_v28) := by
  show StableHlo.after hostOps2 (W4 m ρ c) (Proc.devRef .tc main_v28) = _
  after_results_simp

theorem nrm_step6 : W6 m ρ c (Proc.devRef .tc main_v28) = W5 m ρ c (Proc.devRef .tc main_v28) :=
  W6_of_ne m ρ c main_v28 (by decide)

theorem nrm_step7 : W7 m ρ c (Proc.devRef .tc main_v28) = W6 m ρ c (Proc.devRef .tc main_v28) := by
  show StableHlo.after hostOps3 (W6 m ρ c) (Proc.devRef .tc main_v28) = _
  after_results_simp

theorem nrm_step8 : W8 m ρ c (Proc.devRef .tc main_v28) = W7 m ρ c (Proc.devRef .tc main_v28) :=
  W8_of_ne m ρ c main_v28 (by decide)

theorem nrm_step9 : W9 m ρ c (Proc.devRef .tc main_v28) = W8 m ρ c (Proc.devRef .tc main_v28) := by
  show StableHlo.after hostOps4 (W8 m ρ c) (Proc.devRef .tc main_v28) = _
  after_results_simp

theorem nrm_step10 : W10 m ρ c (Proc.devRef .tc main_v28) = W9 m ρ c (Proc.devRef .tc main_v28) :=
  W10_of_ne m ρ c main_v28 (by decide)

theorem nrm_at2 : W2 m ρ c (Proc.devRef .tc main_v28) = W1 m ρ c (Proc.devRef .tc main_v28) :=
  nrm_step2 m ρ c

theorem nrm_at6 : W6 m ρ c (Proc.devRef .tc main_v28) = W1 m ρ c (Proc.devRef .tc main_v28) :=
  (nrm_step6 m ρ c).trans ((nrm_step5 m ρ c).trans ((nrm_step4 m ρ c).trans ((nrm_step3 m ρ c).trans (nrm_step2 m ρ c))))

theorem nrm_at10 : W10 m ρ c (Proc.devRef .tc main_v28) = W1 m ρ c (Proc.devRef .tc main_v28) :=
  (nrm_step10 m ρ c).trans ((nrm_step9 m ρ c).trans ((nrm_step8 m ρ c).trans ((nrm_step7 m ρ c).trans ((nrm_step6 m ρ c).trans ((nrm_step5 m ρ c).trans ((nrm_step4 m ρ c).trans ((nrm_step3 m ρ c).trans (nrm_step2 m ρ c))))))))

/-! ## A layer's activations, through the one conversion that precedes the next product -/

theorem act1_step5 : W5 m ρ c (Proc.devRef .tc main_v45) = W4 m ρ c (Proc.devRef .tc main_v45) := by
  show StableHlo.after hostOps2 (W4 m ρ c) (Proc.devRef .tc main_v45) = _
  after_results_simp

theorem act2_step9 : W9 m ρ c (Proc.devRef .tc main_v62) = W8 m ρ c (Proc.devRef .tc main_v62) := by
  show StableHlo.after hostOps4 (W8 m ρ c) (Proc.devRef .tc main_v62) = _
  after_results_simp

end Cert.KernelIdeal.Carry

end
-- ==== Proof.Entry.lean ====
/-
  What the first stretch of host operations makes, in the reference's words.

  Before the first product the kernel's program computes, from the edge list alone, the three arrays every layer's
  aggregation reads: the edge sources and the edge targets, each with one self-loop per node appended, and the
  symmetric normalisation weight of every edge (the reciprocal square roots of the two end points' degrees,
  multiplied).  The reference computes the same three arrays by the same operations in the same order, so each
  is — as a term, nothing to prove beyond unfolding — the reference's stage of the same name applied to the edge
  list.  The stretch also rounds the first weight matrix to bf16 and leaves the node features alone.
-/
import proofs.«150194_j37409165148770_1_alg».proof.Proof.Gen.KernelIdeal.Frame
import proofs.«150194_j37409165148770_1_alg».proof.Proof.Gen.ReferenceIdeal.Read

set_option maxRecDepth 16384

noncomputable section

namespace Cert.KernelIdeal.Entry

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edge sources with the self-loops appended. -/
theorem src_made : W1 m ρ c (Proc.devRef .tc main_v5) = Cert.ReferenceIdeal.Read.val_main_v5 (F := Ideal) (m ((c : Thread nD τ).loc main_arg1)) := by
  show StableHlo.after hostOps0 (W0 m ρ c) (Proc.devRef .tc main_v5) = _
  after_results_simp
  rfl

/-- The edge targets with the self-loops appended. -/
theorem dst_made : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

/-- The normalisation weight of every edge. -/
theorem nrm_made : W1 m ρ c (Proc.devRef .tc main_v28) = Cert.ReferenceIdeal.Read.val_main_v28 (F := Ideal) (m ((c : Thread nD τ).loc main_arg1)) := by
  show StableHlo.after hostOps0 (W0 m ρ c) (Proc.devRef .tc main_v28) = _
  after_results_simp
  rfl

/-- The first weight matrix, rounded to bf16. -/
theorem w1_made : W1 m ρ c (Proc.devRef .tc main_v29) = (truncf .bf16 ((m ((c : Thread nD τ).loc main_arg2)) : FVec Ideal S128x128 .f32) bitsLt_bf16_f32 : FVec Ideal S128x128 .bf16) := by
  show StableHlo.after hostOps0 (W0 m ρ c) (Proc.devRef .tc main_v29) = _
  after_results_simp

/-- The node features, untouched. -/
theorem feat_kept : W1 m ρ c (Proc.devRef .tc main_arg0) = (m ((c : Thread nD τ).loc main_arg0)) := by
  show StableHlo.after hostOps0 (W0 m ρ c) (Proc.devRef .tc main_arg0) = _
  after_results_simp

end Cert.KernelIdeal.Entry

end
-- ==== Proof.Stage0.lean ====
/-
  Stage 0 of the idealized kernel: a row-tiled matrix product.

  The [50000, 128] array `A` (the node features) is cut into 25 blocks of 2000 rows; grid point `t` multiplies block `t`
  by the whole [128, 128] matrix `B` into a zero accumulator and writes the [2000, 128] product back as block `t` of
  the result.  Read at the extended reals, entry (p, q) of a block product is the plain sum over k of
  x(p, k) · w(k, q) (the zero accumulator adds nothing and a change of float format is the identity), and row
  2000·t + p of `A` is row p of block `t`; so the blocks are the restrictions of ONE function of the two arrays,
      product A B (i, j) = ∑ k, A (i, k) · B (k, j),
  and since the 25 blocks tile the result, the result array ends holding exactly that function.  Everything is
  stated for arbitrary contents `V` of the buffers at the moment the stage is entered.
-/
import proofs.«150194_j37409165148770_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

/-- The matrix product of a [50000, 128] array and a [128, 128] matrix over the extended reals, entry by entry. -/
def product (A : FVec Ideal S50000x128 .f32) (B : FVec Ideal S128x128 .bf16) : FVec Ideal S50000x128 .f32 :=
  fun i => ∑ k : Fin 128, A (ix2 (⟨(i 0).val, (i 0).isLt⟩ : Fin 50000) k) * B (ix2 k (⟨(i 1).val, (i 1).isLt⟩ : Fin 128))

/-! ## One block product, entry by entry -/

/-- The left operand of the block product at output (p, q) and contraction index k is x(p, k): row coordinate. -/
theorem lhs_row (j : S2000x128.Idx) (u : dot_S2000x128_S128x128_S2000x128_1_0_0_1_n_n.contr.Idx) :
    (dot_S2000x128_S128x128_S2000x128_1_0_0_1_n_n.lhsIdx j u 0).val = (j 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and its column coordinate is the contraction index. -/
theorem lhs_col (j : S2000x128.Idx) (u : dot_S2000x128_S128x128_S2000x128_1_0_0_1_n_n.contr.Idx) :
    (dot_S2000x128_S128x128_S2000x128_1_0_0_1_n_n.lhsIdx j u 1).val = (u ⟨0, by decide⟩).val :=
  dot_S2000x128_S128x128_S2000x128_1_0_0_1_n_n.lhsIdx_val_of_single rfl j u
/-- The right operand is w(k, q): its row coordinate is the contraction index … -/
theorem rhs_row (j : S2000x128.Idx) (u : dot_S2000x128_S128x128_S2000x128_1_0_0_1_n_n.contr.Idx) :
    (dot_S2000x128_S128x128_S2000x128_1_0_0_1_n_n.rhsIdx j u 0).val = (u ⟨0, by decide⟩).val :=
  dot_S2000x128_S128x128_S2000x128_1_0_0_1_n_n.rhsIdx_val_of_single rfl j u
/-- … and its column coordinate the output's. -/
theorem rhs_col (j : S2000x128.Idx) (u : dot_S2000x128_S128x128_S2000x128_1_0_0_1_n_n.contr.Idx) :
    (dot_S2000x128_S128x128_S2000x128_1_0_0_1_n_n.rhsIdx j u 1).val = (j 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- What a grid point stores, at entry (p, q) of its block: ∑ k, x(p, k) · w(k, q).
    the left operand is rounded to bf16 on the way in, which at the extended reals changes nothing; the product starts from the zero accumulator. -/
theorem block_entry (x : Vec Ideal S2000x128 .f32) (w : Vec Ideal S128x128 .bf16) (p : Fin 2000) (q : Fin 128) :
    k0_pay1 (F := Ideal) x w (ix2 p q) = ∑ k : Fin 128, x (ix2 p k) * w (ix2 k q) := by
  unfold k0_pay1
  refine (Ideal.matmul_constant_zero_apply dot_S2000x128_S128x128_S2000x128_1_0_0_1_n_n none _ _ (ix2 p q)).trans ?_
  rw [← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self]
  rfl

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- How the three block index maps sit over the grid: the row block of `A` is the result's, `B` is taken whole, and
    the result's blocks are the 25 row blocks of one column block. -/
theorem index_maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block of the result is some grid point's. -/
theorem row_block_onto : ∀ b : Fin 25, ∃ t : Fin cfg0.N, win0_2.index t = ![b.val, 0] :=
  (by decide +kernel : ∀ b : Fin 25, ∃ t : Fin grid0.N, win0_2.index t = ![b.val, 0])

/-- What grid point `t` writes back is block `t` of the product of the two arrays as the stage finds them. -/
theorem flushed_eq (c : Dev nD) (t : Fin cfg0.N) :
    (dat0 V c).flushed 2 t = ((cfg0.win 2).blk t).view.read (Elt Ideal) (product (V c main_arg0) (V c main_v29)) := by
  show (cfg0.win 2).cut (grid0.coords t) ((dat0 V c).after 2 t) = _
  rw [after0_2]
  unfold out0_2
  rw [View.canon_unit_zero offset_zero]
  simp only [View.ld_unit_zero (S := S2000x128) offset_zero, View.ld_unit_zero (S := S128x128) offset_zero]
  obtain ⟨e0, e1, e2, e3, e4, e5⟩ := index_maps t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = product (V c main_arg0) (V c main_v29) (((cfg0.win 2).blk t).view.emb (ix2 p q))
  refine (block_entry (iblk0 V c 0 t) (iblk0 V c 1 t) p q).trans ?_
  unfold product
  refine Finset.sum_congr rfl fun k _ => ?_
  have hA : iblk0 V c 0 t (ix2 p k) = V c main_arg0 (ix2 (⟨((((cfg0.win 2).blk t).view.emb (ix2 p q)) 0).val, ((((cfg0.win 2).blk t).view.emb (ix2 p q)) 0).isLt⟩ : Fin 50000) k) := by
    show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  have hB : iblk0 V c 1 t (ix2 k q) = V c main_v29 (ix2 k (⟨((((cfg0.win 2).blk t).view.emb (ix2 p q)) 1).val, ((((cfg0.win 2).blk t).view.emb (ix2 p q)) 1).isLt⟩ : Fin 128)) := by
    show V c main_v29 (((cfg0.win 1).blk t).view.emb (ix2 k q)) = _
    refine congrArg (V c main_v29) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [hA, hB]

/-- An index of the result is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v30).slice (win0_2.rect t)).set ↔ _
  rw [View.set_slice_whole, Rect.mem_set_unit]
  exact Iff.rfl

/-- The 25 row blocks tile the result: row r lies in block r / 2000. -/
theorem covered (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := row_block_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the stage the result array is the product of the two arrays the stage was entered with. -/
theorem result (c : Dev nD) : (dat0 V c).arrAt 2 cfg0.N = product (V c main_arg0) (V c main_v29) :=
  (dat0 V c).arrAt_eq_of_cover 2 _ (fun t _ => flushed_eq V c t) (covered)

end Cert.KernelIdeal.Stage0

end
-- ==== Proof.Stage1.lean ====
/-
  Stage 1 of the idealized kernel: a row-tiled bias-and-clamp.

  The [50000, 128] array `A` (the aggregated messages) is cut into 25 blocks of 2000 rows; grid point `t` adds the
  one-row bias `b` ([1, 128], taken whole) to every row of block `t`, clamps below at zero, and writes the
  [2000, 128] block back as block `t` of the result (the result is rounded to bf16 on the way out, which at the extended reals changes nothing).  Entry
  (p, q) of a block is max (x(p, q) + b(0, q), 0), and row 2000·t + p of `A` is row p of block `t`; so the blocks
  are the restrictions of ONE function of the two arrays,
      biasClamp A b (i, j) = max (A (i, j) + b (0, j)) 0,
  and since the 25 blocks tile the result, the result array ends holding exactly that function.  The zero is kept
  as the float word it is written with: the same word stands on the other side of the comparison.  Everything
  is stated for arbitrary contents `V` of the buffers at the moment the stage is entered.
-/
import proofs.«150194_j37409165148770_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)

/-- A [50000, 128] array plus a one-row bias, clamped below at zero, entry by entry over the extended reals. -/
def biasClamp (A : FVec Ideal S50000x128 .f32) (b : FVec Ideal S1x128 .f32) : FVec Ideal S50000x128 .bf16 :=
  fun i => max (A i + b (ix2 (0 : Fin 1) (⟨(i 1).val, (i 1).isLt⟩ : Fin 128))) (Ideal.ofBits .f32 0x00000000#32)

/-! ## One block, entry by entry -/

/-- What a grid point stores, at entry (p, q) of its block: max (x(p, q) + b(0, q), 0). -/
theorem block_entry (x : Vec Ideal S2000x128 .f32) (b : Vec Ideal S1x128 .f32) (p : Fin 2000) (q : Fin 128) :
    k1_pay1 (F := Ideal) x b (ix2 p q) = max (x (ix2 p q) + b (ix2 (0 : Fin 1) q)) (Ideal.ofBits .f32 0x00000000#32) := by
  unfold k1_pay1
  rw [shapeCast_self, shapeCast_self]
  show max (x (ix2 p q) + broadcastTo S2000x128 b broadcasts_S1x128_S2000x128 (ix2 p q)) (Ideal.ofBits .f32 0x00000000#32) = _
  rw [broadcastTo_1b_ab_apply]

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- How the three block index maps sit over the grid: the block of `A` is the result's, the bias is taken whole, and
    the result's blocks are the 25 row blocks of one column block. -/
theorem index_maps : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (1 : Fin 2) = 0
    ∧ win1_2.index t (0 : Fin 2) ≤ 24 :=
  (by decide +kernel : ∀ t : Fin grid1.N, _)

/-- Every row block of the result is some grid point's. -/
theorem row_block_onto : ∀ b : Fin 25, ∃ t : Fin cfg1.N, win1_2.index t = ![b.val, 0] :=
  (by decide +kernel : ∀ b : Fin 25, ∃ t : Fin grid1.N, win1_2.index t = ![b.val, 0])

/-- What grid point `t` writes back is block `t` of the bias-and-clamp of the two arrays as the stage finds them. -/
theorem flushed_eq (c : Dev nD) (t : Fin cfg1.N) :
    (dat1 V c).flushed 2 t = ((cfg1.win 2).blk t).view.read (Elt Ideal) (biasClamp (V c main_v43) (V c main_v44)) := by
  show (cfg1.win 2).cut (grid1.coords t) ((dat1 V c).after 2 t) = _
  rw [after1_2]
  unfold out1_2
  rw [View.canon_unit_zero offset_zero]
  simp only [View.ld_unit_zero (S := S2000x128) offset_zero, View.ld_unit_zero (S := S1x128) offset_zero]
  obtain ⟨e0, e1, e2, e3, e4, e5⟩ := index_maps t
  funext j
  obtain ⟨p, q, rfl⟩ : ∃ (p : Fin 2000) (q : Fin 128), j = ix2 p q := ⟨j 0, j 1, eq_ix2 j⟩
  show k1_pay1 (F := Ideal) (iblk1 V c 0 t) (iblk1 V c 1 t) (ix2 p q) = biasClamp (V c main_v43) (V c main_v44) (((cfg1.win 2).blk t).view.emb (ix2 p q))
  refine (block_entry (iblk1 V c 0 t) (iblk1 V c 1 t) p q).trans ?_
  unfold biasClamp
  have hA : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  have hB : iblk1 V c 1 t (ix2 (0 : Fin 1) q) = V c main_v44 (ix2 (0 : Fin 1) (⟨((((cfg1.win 2).blk t).view.emb (ix2 p q)) 1).val, ((((cfg1.win 2).blk t).view.emb (ix2 p q)) 1).isLt⟩ : Fin 128)) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [hA, hB]

/-- An index of the result is in point `t`'s block iff each coordinate is in the block's range on its axis. -/
theorem mem_block (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v45).slice (win1_2.rect t)).set ↔ _
  rw [View.set_slice_whole, Rect.mem_set_unit]
  exact Iff.rfl

/-- The 25 row blocks tile the result: row r lies in block r / 2000. -/
theorem covered (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := row_block_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- After the stage the result array is the bias-and-clamp of the two arrays the stage was entered with. -/
theorem result (c : Dev nD) : (dat1 V c).arrAt 2 cfg1.N = biasClamp (V c main_v43) (V c main_v44) :=
  (dat1 V c).arrAt_eq_of_cover 2 _ (fun t _ => flushed_eq V c t) (covered)

end Cert.KernelIdeal.Stage1

end
-- ==== Proof.Stage2.lean ====
/-
  Stage 2 of the idealized kernel: a row-tiled matrix product.

  The [50000, 128] array `A` (the first layer's activations) is cut into 25 blocks of 2000 rows; grid point `t` multiplies block `t`
  by the whole [128, 256] matrix `B` into a zero accumulator and writes the [2000, 256] product back as block `t` of
  the result.  Read at the extended reals, entry (p, q) of a block product is the plain sum over k of
  x(p, k) · w(k, q) (the zero accumulator adds nothing and a change of float format is the identity), and row
  2000·t + p of `A` is row p of block `t`; so the blocks are the restrictions of ONE function of the two arrays,
      product A B (i, j) = ∑ k, A (i, k) · B (k, j),
  and since the 25 blocks tile the result, the result array ends holding exactly that function.  Everything is
  stated for arbitrary contents `V` of the buffers at the moment the stage is entered.
-/
import proofs.«150194_j37409165148770_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

/-- The matrix product of a [50000, 128] array and a [128, 256] matrix over the extended reals, entry by entry. -/
def product (A : FVec Ideal S50000x128 .bf16) (B : FVec Ideal S128x256 .bf16) : FVec Ideal S50000x256 .f32 :=
  fun i => ∑ k : Fin 128, A (ix2 (⟨(i 0).val, (i 0).isLt⟩ : Fin 50000) k) * B (ix2 k (⟨(i 1).val, (i 1).isLt⟩ : Fin 256))

/-! ## One block product, entry by entry -/

/-- The left operand of the block product at output (p, q) and contraction index k is x(p, k): row coordinate. -/
theorem lhs_row (j : S2000x256.Idx) (u : dot_S2000x128_S128x256_S2000x256_1_0_0_1_n_n.contr.Idx) :
    (dot_S2000x128_S128x256_S2000x256_1_0_0_1_n_n.lhsIdx j u 0).val = (j 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and its column coordinate is the contraction index. -/
theorem lhs_col (j : S2000x256.Idx) (u : dot_S2000x128_S128x256_S2000x256_1_0_0_1_n_n.contr.Idx) :
    (dot_S2000x128_S128x256_S2000x256_1_0_0_1_n_n.lhsIdx j u 1).val = (u ⟨0, by decide⟩).val :=
  dot_S2000x128_S128x256_S2000x256_1_0_0_1_n_n.lhsIdx_val_of_single rfl j u
/-- The right operand is w(k, q): its row coordinate is the contraction index … -/
theorem rhs_row (j : S2000x256.Idx) (u : dot_S2000x128_S128x256_S2000x256_1_0_0_1_n_n.contr.Idx) :
    (dot_S2000x128_S128x256_S2000x256_1_0_0_1_n_n.rhsIdx j u 0).val = (u ⟨0, by decide⟩).val :=
  dot_S2000x128_S128x256_S2000x256_1_0_0_1_n_n.rhsIdx_val_of_single rfl j u
/-- … and its column coordinate the output's. -/
theorem rhs_col (j : S2000x256.Idx) (u : dot_S2000x128_S128x256_S2000x256_1_0_0_1_n_n.contr.Idx) :
    (dot_S2000x128_S128x256_S2000x256_1_0_0_1_n_n.rhsIdx j u 1).val = (j 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- What a grid point stores, at entry (p, q) of its block: ∑ k, x(p, k) · w(k, q).
    the left operand arrives already in bf16; the product starts from the zero accumulator. -/
theorem block_entry (x : Vec Ideal S2000x128 .bf16) (w : Vec Ideal S128x256 .bf16) (p : Fin 2000) (q : Fin 256) :
    k2_pay1 (F := Ideal) x w (ix2 p q) = ∑ k : Fin 128, x (ix2 p k) * w (ix2 k q) := by
  unfold k2_pay1
  refine (Ideal.matmul_constant_zero_apply dot_S2000x128_S128x256_S2000x256_1_0_0_1_n_n none _ _ (ix2 p q)).trans ?_
  rw [← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs_row _ _).trans hk
    | ⟨1, _⟩ => exact rhs_col _ _)
  rw [el, er, shapeCast_self, shapeCast_self]

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- How the three block index maps sit over the grid: the row block of `A` is the result's, `B` is taken whole, and
    the result's blocks are the 25 row blocks of one column block. -/
theorem index_maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 24 :=
  (by decide +kernel : ∀ t : Fin grid2.N, _)

/-- Every row block of the result is some grid point's. -/
theorem row_block_onto : ∀ b : Fin 25, ∃ t : Fin cfg2.N, win2_2.index t = ![b.val, 0] :=
  (by decide +kernel : ∀ b : Fin 25, ∃ t : Fin grid2.N, win2_2.index t = ![b.val, 0])

/-- What grid point `t` writes back is block `t` of the product of the two arrays as the stage finds them. -/
theorem flushed_eq (c : Dev nD) (t : Fin cfg2.N) :
    (dat2 V c).flushed 2 t = ((cfg2.win 2).blk t).view.read (Elt Ideal) (product (V c main_v45) (V c main_v46)) := by
  show (cfg2.win 2).cut (grid2.coords t) ((dat2 V c).after 2 t) = _
  rw [after2_2]
  unfold out2_2
  rw [View.canon_unit_zero offset_zero]
  simp only [View.ld_unit_zero (S := S2000x128) offset_zero, View.ld_unit_zero (S := S128x256) offset_zero]
  obtain ⟨e0, e1, e2, e3, e4, e5⟩ := index_maps t
  funext j
  obtain ⟨p, q, rfl⟩ : ∃ (p : Fin 2000) (q : Fin 256), j = ix2 p q := ⟨j 0, j 1, eq_ix2 j⟩
  show k2_pay1 (F := Ideal) (iblk2 V c 0 t) (iblk2 V c 1 t) (ix2 p q) = product (V c main_v45) (V c main_v46) (((cfg2.win 2).blk t).view.emb (ix2 p q))
  refine (block_entry (iblk2 V c 0 t) (iblk2 V c 1 t) p q).trans ?_
  unfold product
  refine Finset.sum_congr rfl fun k _ => ?_
  have hA : iblk2 V c 0 t (ix2 p k) = V c main_v45 (ix2 (⟨((((cfg2.win 2).blk t).view.emb (ix2 p q)) 0).val, ((((cfg2.win 2).blk t).view.emb (ix2 p q)) 0).isLt⟩ : Fin 50000) k) := by
    show V c main_v45 (((cfg2.win 0).blk t).view.emb (ix2 p k)) = _
    refine congrArg (V c main_v45) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  have hB : iblk2 V c 1 t (ix2 k q) = V c main_v46 (ix2 k (⟨((((cfg2.win 2).blk t).view.emb (ix2 p q)) 1).val, ((((cfg2.win 2).blk t).view.emb (ix2 p q)) 1).isLt⟩ : Fin 256)) := by
    show V c main_v46 (((cfg2.win 1).blk t).view.emb (ix2 k q)) = _
    refine congrArg (V c main_v46) (funext fun a => Fin.ext ?_)
    match a with
    | ⟨0, _⟩ => show win2_1.index t (0 : Fin 2) * 128 + 1 * k.val = k.val; omega
    | ⟨1, _⟩ => show win2_1.index t (1 : Fin 2) * 256 + 1 * q.val = win2_2.index t (1 : Fin 2) * 256 + 1 * q.val; omega
  rw [hA, hB]

/-- An index of the result is in point `t`'s block iff each coordinate is in the block's range on its axis. -/
theorem mem_block (t : Fin cfg2.N) (i : S50000x256.Idx) :
    i ∈ ((cfg2.win 2).blk t).view.set ↔ ∀ a : Fin 2, win2_2.index t a * S2000x256.size a ≤ (i a).val ∧ (i a).val < win2_2.index t a * S2000x256.size a + S2000x256.size a := by
  show i ∈ ((View.whole main_v47).slice (win2_2.rect t)).set ↔ _
  rw [View.set_slice_whole, Rect.mem_set_unit]
  exact Iff.rfl

/-- The 25 row blocks tile the result: row r lies in block r / 2000. -/
theorem covered (i : S50000x256.Idx) : ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := row_block_onto ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 256 ≤ (i 1).val ∧ (i 1).val < win2_2.index t (1 : Fin 2) * 256 + 256; omega

/-- After the stage the result array is the product of the two arrays the stage was entered with. -/
theorem result (c : Dev nD) : (dat2 V c).arrAt 2 cfg2.N = product (V c main_v45) (V c main_v46) :=
  (dat2 V c).arrAt_eq_of_cover 2 _ (fun t _ => flushed_eq V c t) (covered)

end Cert.KernelIdeal.Stage2

end
-- ==== Proof.Stage3.lean ====
/-
  Stage 3 of the idealized kernel: a row-tiled bias-and-clamp.

  The [50000, 256] array `A` (the aggregated messages) is cut into 25 blocks of 2000 rows; grid point `t` adds the
  one-row bias `b` ([1, 256], taken whole) to every row of block `t`, clamps below at zero, and writes the
  [2000, 256] block back as block `t` of the result (the result is rounded to bf16 on the way out, which at the extended reals changes nothing).  Entry
  (p, q) of a block is max (x(p, q) + b(0, q), 0), and row 2000·t + p of `A` is row p of block `t`; so the blocks
  are the restrictions of ONE function of the two arrays,
      biasClamp A b (i, j) = max (A (i, j) + b (0, j)) 0,
  and since the 25 blocks tile the result, the result array ends holding exactly that function.  The zero is kept
  as the float word it is written with: the same word stands on the other side of the comparison.  Everything
  is stated for arbitrary contents `V` of the buffers at the moment the stage is entered.
-/
import proofs.«150194_j37409165148770_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage3

open Cert.KernelIdeal Cert.KernelIdeal.Gen Idealize.ShloMosaic Idealize.ShloMosaic.TcCoe Idealize.SL.Sem
open Idealize.ShloMosaic.ValueIdx
open Idealize.ShloMosaic.Pipeline (Dat)

/-- A [50000, 256] array plus a one-row bias, clamped below at zero, entry by entry over the extended reals. -/
def biasClamp (A : FVec Ideal S50000x256 .f32) (b : FVec Ideal S1x256 .f32) : FVec Ideal S50000x256 .bf16 :=
  fun i => max (A i + b (ix2 (0 : Fin 1) (⟨(i 1).val, (i 1).isLt⟩ : Fin 256))) (Ideal.ofBits .f32 0x00000000#32)

/-! ## One block, entry by entry -/

/-- What a grid point stores, at entry (p, q) of its block: max (x(p, q) + b(0, q), 0). -/
theorem block_entry (x : Vec Ideal S2000x256 .f32) (b : Vec Ideal S1x256 .f32) (p : Fin 2000) (q : Fin 256) :
    k3_pay1 (F := Ideal) x b (ix2 p q) = max (x (ix2 p q) + b (ix2 (0 : Fin 1) q)) (Ideal.ofBits .f32 0x00000000#32) := by
  unfold k3_pay1
  rw [shapeCast_self, shapeCast_self]
  show max (x (ix2 p q) + broadcastTo S2000x256 b broadcasts_S1x256_S2000x256 (ix2 p q)) (Ideal.ofBits .f32 0x00000000#32) = _
  rw [broadcastTo_1b_ab_apply]

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- How the three block index maps sit over the grid: the block of `A` is the result's, the bias is taken whole, and
    the result's blocks are the 25 row blocks of one column block. -/
theorem index_maps : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every row block of the result is some grid point's. -/
theorem row_block_onto : ∀ b : Fin 25, ∃ t : Fin cfg3.N, win3_2.index t = ![b.val, 0] :=
  (by decide +kernel : ∀ b : Fin 25, ∃ t : Fin grid3.N, win3_2.index t = ![b.val, 0])

/-- What grid point `t` writes back is block `t` of the bias-and-clamp of the two arrays as the stage finds them. -/
theorem flushed_eq (c : Dev nD) (t : Fin cfg3.N) :
    (dat3 V c).flushed 2 t = ((cfg3.win 2).blk t).view.read (Elt Ideal) (biasClamp (V c main_v60) (V c main_v61)) := by
  show (cfg3.win 2).cut (grid3.coords t) ((dat3 V c).after 2 t) = _
  rw [after3_2]
  unfold out3_2
  rw [View.canon_unit_zero offset_zero]
  simp only [View.ld_unit_zero (S := S2000x256) offset_zero, View.ld_unit_zero (S := S1x256) offset_zero]
  obtain ⟨e0, e1, e2, e3, e4, e5⟩ := index_maps t
  funext j
  obtain ⟨p, q, rfl⟩ : ∃ (p : Fin 2000) (q : Fin 256), j = ix2 p q := ⟨j 0, j 1, eq_ix2 j⟩
  show k3_pay1 (F := Ideal) (iblk3 V c 0 t) (iblk3 V c 1 t) (ix2 p q) = biasClamp (V c main_v60) (V c main_v61) (((cfg3.win 2).blk t).view.emb (ix2 p q))
  refine (block_entry (iblk3 V c 0 t) (iblk3 V c 1 t) p q).trans ?_
  unfold biasClamp
  have hA : iblk3 V c 0 t (ix2 p q) = V c main_v60 (((cfg3.win 2).blk t).view.emb (ix2 p q)) := by
    show V c main_v60 (((cfg3.win 0).blk t).view.emb (ix2 p q)) = _
    refine congrArg (V c main_v60) (funext fun a => Fin.ext ?_)
    match a with
    | ⟨0, _⟩ => show win3_0.index t (0 : Fin 2) * 2000 + 1 * p.val = win3_2.index t (0 : Fin 2) * 2000 + 1 * p.val; omega
    | ⟨1, _⟩ => show win3_0.index t (1 : Fin 2) * 256 + 1 * q.val = win3_2.index t (1 : Fin 2) * 256 + 1 * q.val; omega
  have hB : iblk3 V c 1 t (ix2 (0 : Fin 1) q) = V c main_v61 (ix2 (0 : Fin 1) (⟨((((cfg3.win 2).blk t).view.emb (ix2 p q)) 1).val, ((((cfg3.win 2).blk t).view.emb (ix2 p q)) 1).isLt⟩ : Fin 256)) := by
    show V c main_v61 (((cfg3.win 1).blk t).view.emb (ix2 (0 : Fin 1) q)) = _
    refine congrArg (V c main_v61) (funext fun a => Fin.ext ?_)
    match a with
    | ⟨0, _⟩ => show win3_1.index t (0 : Fin 2) * 1 + 1 * 0 = 0; omega
    | ⟨1, _⟩ => show win3_1.index t (1 : Fin 2) * 256 + 1 * q.val = win3_2.index t (1 : Fin 2) * 256 + 1 * q.val; omega
  rw [hA, hB]

/-- An index of the result is in point `t`'s block iff each coordinate is in the block's range on its axis. -/
theorem mem_block (t : Fin cfg3.N) (i : S50000x256.Idx) :
    i ∈ ((cfg3.win 2).blk t).view.set ↔ ∀ a : Fin 2, win3_2.index t a * S2000x256.size a ≤ (i a).val ∧ (i a).val < win3_2.index t a * S2000x256.size a + S2000x256.size a := by
  show i ∈ ((View.whole main_v62).slice (win3_2.rect t)).set ↔ _
  rw [View.set_slice_whole, Rect.mem_set_unit]
  exact Iff.rfl

/-- The 25 row blocks tile the result: row r lies in block r / 2000. -/
theorem covered (i : S50000x256.Idx) : ∃ t : Fin cfg3.N, (cfg3.win 2).flush t = true ∧ i ∈ ((cfg3.win 2).blk t).view.set := by
  have hi0 : (i 0).val < 50000 := (i 0).isLt
  have hi1 : (i 1).val < 256 := (i 1).isLt
  obtain ⟨t, ht⟩ := row_block_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 256 ≤ (i 1).val ∧ (i 1).val < win3_2.index t (1 : Fin 2) * 256 + 256; omega

/-- After the stage the result array is the bias-and-clamp of the two arrays the stage was entered with. -/
theorem result (c : Dev nD) : (dat3 V c).arrAt 2 cfg3.N = biasClamp (V c main_v60) (V c main_v61) :=
  (dat3 V c).arrAt_eq_of_cover 2 _ (fun t _ => flushed_eq V c t) (covered)

end Cert.KernelIdeal.Stage3

end
-- ==== Proof.Stage4.lean ====
/-
  Stage 4 of the idealized kernel: a row-tiled matrix product.

  The [50000, 256] array `A` (the second layer's activations) is cut into 25 blocks of 2000 rows; grid point `t` multiplies block `t`
  by the whole [256, 512] matrix `B` into a zero accumulator and writes the [2000, 512] product back as block `t` of
  the result.  Read at the extended reals, entry (p, q) of a block product is the plain sum over k of
  x(p, k) · w(k, q) (the zero accumulator adds nothing and a change of float format is the identity), and row
  2000·t + p of `A` is row p of block `t`; so the blocks are the restrictions of ONE function of the two arrays,
      product A B (i, j) = ∑ k, A (i, k) · B (k, j),
  and since the 25 blocks tile the result, the result array ends holding exactly that function.  Everything is
  stated for arbitrary contents `V` of the buffers at the moment the stage is entered.
-/
import proofs.«150194_j37409165148770_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Stage4

open Cert.KernelIdeal Cert.KernelIdeal.Gen Idealize.ShloMosaic Idealize.ShloMosaic.TcCoe Idealize.SL.Sem
open Idealize.ShloMosaic.ValueIdx
open Idealize.ShloMosaic.Pipeline (Dat)

/-- The matrix product of a [50000, 256] array and a [256, 512] matrix over the extended reals, entry by entry. -/
def product (A : FVec Ideal S50000x256 .bf16) (B : FVec Ideal S256x512 .bf16) : FVec Ideal S50000x512 .f32 :=
  fun i => ∑ k : Fin 256, A (ix2 (⟨(i 0).val, (i 0).isLt⟩ : Fin 50000) k) * B (ix2 k (⟨(i 1).val, (i 1).isLt⟩ : Fin 512))

/-! ## One block product, entry by entry -/

/-- The left operand of the block product at output (p, q) and contraction index k is x(p, k): row coordinate. -/
theorem lhs_row (j : S2000x512.Idx) (u : dot_S2000x256_S256x512_S2000x512_1_0_0_1_n_n.contr.Idx) :
    (dot_S2000x256_S256x512_S2000x512_1_0_0_1_n_n.lhsIdx j u 0).val = (j 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
/-- … and its column coordinate is the contraction index. -/
theorem lhs_col (j : S2000x512.Idx) (u : dot_S2000x256_S256x512_S2000x512_1_0_0_1_n_n.contr.Idx) :
    (dot_S2000x256_S256x512_S2000x512_1_0_0_1_n_n.lhsIdx j u 1).val = (u ⟨0, by decide⟩).val :=
  dot_S2000x256_S256x512_S2000x512_1_0_0_1_n_n.lhsIdx_val_of_single rfl j u
/-- The right operand is w(k, q): its row coordinate is the contraction index … -/
theorem rhs_row (j : S2000x512.Idx) (u : dot_S2000x256_S256x512_S2000x512_1_0_0_1_n_n.contr.Idx) :
    (dot_S2000x256_S256x512_S2000x512_1_0_0_1_n_n.rhsIdx j u 0).val = (u ⟨0, by decide⟩).val :=
  dot_S2000x256_S256x512_S2000x512_1_0_0_1_n_n.rhsIdx_val_of_single rfl j u
/-- … and its column coordinate the output's. -/
theorem rhs_col (j : S2000x512.Idx) (u : dot_S2000x256_S256x512_S2000x512_1_0_0_1_n_n.contr.Idx) :
    (dot_S2000x256_S256x512_S2000x512_1_0_0_1_n_n.rhsIdx j u 1).val = (j 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- What a grid point stores, at entry (p, q) of its block: ∑ k, x(p, k) · w(k, q).
    the left operand arrives already in bf16; the product starts from the zero accumulator. -/
theorem block_entry (x : Vec Ideal S2000x256 .bf16) (w : Vec Ideal S256x512 .bf16) (p : Fin 2000) (q : Fin 512) :
    k4_pay1 (F := Ideal) x w (ix2 p q) = ∑ k : Fin 256, x (ix2 p k) * w (ix2 k q) := by
  unfold k4_pay1
  refine (Ideal.matmul_constant_zero_apply dot_S2000x256_S256x512_S2000x512_1_0_0_1_n_n none _ _ (ix2 p q)).trans ?_
  rw [← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhs_row _ _
    | ⟨1, _⟩ => exact (lhs_col _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhs_row _ _).trans hk
    | ⟨1, _⟩ => exact rhs_col _ _)
  rw [el, er, shapeCast_self, shapeCast_self]

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- How the three block index maps sit over the grid: the row block of `A` is the result's, `B` is taken whole, and
    the result's blocks are the 25 row blocks of one column block. -/
theorem index_maps : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 24 :=
  (by decide +kernel : ∀ t : Fin grid4.N, _)

/-- Every row block of the result is some grid point's. -/
theorem row_block_onto : ∀ b : Fin 25, ∃ t : Fin cfg4.N, win4_2.index t = ![b.val, 0] :=
  (by decide +kernel : ∀ b : Fin 25, ∃ t : Fin grid4.N, win4_2.index t = ![b.val, 0])

/-- What grid point `t` writes back is block `t` of the product of the two arrays as the stage finds them. -/
theorem flushed_eq (c : Dev nD) (t : Fin cfg4.N) :
    (dat4 V c).flushed 2 t = ((cfg4.win 2).blk t).view.read (Elt Ideal) (product (V c main_v62) (V c main_v63)) := by
  show (cfg4.win 2).cut (grid4.coords t) ((dat4 V c).after 2 t) = _
  rw [after4_2]
  unfold out4_2
  rw [View.canon_unit_zero offset_zero]
  simp only [View.ld_unit_zero (S := S2000x256) offset_zero, View.ld_unit_zero (S := S256x512) offset_zero]
  obtain ⟨e0, e1, e2, e3, e4, e5⟩ := index_maps t
  funext j
  obtain ⟨p, q, rfl⟩ : ∃ (p : Fin 2000) (q : Fin 512), j = ix2 p q := ⟨j 0, j 1, eq_ix2 j⟩
  show k4_pay1 (F := Ideal) (iblk4 V c 0 t) (iblk4 V c 1 t) (ix2 p q) = product (V c main_v62) (V c main_v63) (((cfg4.win 2).blk t).view.emb (ix2 p q))
  refine (block_entry (iblk4 V c 0 t) (iblk4 V c 1 t) p q).trans ?_
  unfold product
  refine Finset.sum_congr rfl fun k _ => ?_
  have hA : iblk4 V c 0 t (ix2 p k) = V c main_v62 (ix2 (⟨((((cfg4.win 2).blk t).view.emb (ix2 p q)) 0).val, ((((cfg4.win 2).blk t).view.emb (ix2 p q)) 0).isLt⟩ : Fin 50000) k) := by
    show V c main_v62 (((cfg4.win 0).blk t).view.emb (ix2 p k)) = _
    refine congrArg (V c main_v62) (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 256 + 1 * k.val = k.val; omega
  have hB : iblk4 V c 1 t (ix2 k q) = V c main_v63 (ix2 k (⟨((((cfg4.win 2).blk t).view.emb (ix2 p q)) 1).val, ((((cfg4.win 2).blk t).view.emb (ix2 p q)) 1).isLt⟩ : Fin 512)) := by
    show V c main_v63 (((cfg4.win 1).blk t).view.emb (ix2 k q)) = _
    refine congrArg (V c main_v63) (funext fun a => Fin.ext ?_)
    match a with
    | ⟨0, _⟩ => show win4_1.index t (0 : Fin 2) * 256 + 1 * k.val = k.val; omega
    | ⟨1, _⟩ => show win4_1.index t (1 : Fin 2) * 512 + 1 * q.val = win4_2.index t (1 : Fin 2) * 512 + 1 * q.val; omega
  rw [hA, hB]

/-- An index of the result is in point `t`'s block iff each coordinate is in the block's range on its axis. -/
theorem mem_block (t : Fin cfg4.N) (i : S50000x512.Idx) :
    i ∈ ((cfg4.win 2).blk t).view.set ↔ ∀ a : Fin 2, win4_2.index t a * S2000x512.size a ≤ (i a).val ∧ (i a).val < win4_2.index t a * S2000x512.size a + S2000x512.size a := by
  show i ∈ ((View.whole main_v64).slice (win4_2.rect t)).set ↔ _
  rw [View.set_slice_whole, Rect.mem_set_unit]
  exact Iff.rfl

/-- The 25 row blocks tile the result: row r lies in block r / 2000. -/
theorem covered (i : S50000x512.Idx) : ∃ t : Fin cfg4.N, (cfg4.win 2).flush t = true ∧ i ∈ ((cfg4.win 2).blk t).view.set := by
  have hi0 : (i 0).val < 50000 := (i 0).isLt
  have hi1 : (i 1).val < 512 := (i 1).isLt
  obtain ⟨t, ht⟩ := row_block_onto ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 512 ≤ (i 1).val ∧ (i 1).val < win4_2.index t (1 : Fin 2) * 512 + 512; omega

/-- After the stage the result array is the product of the two arrays the stage was entered with. -/
theorem result (c : Dev nD) : (dat4 V c).arrAt 2 cfg4.N = product (V c main_v62) (V c main_v63) :=
  (dat4 V c).arrAt_eq_of_cover 2 _ (fun t _ => flushed_eq V c t) (covered)

end Cert.KernelIdeal.Stage4

end
-- ==== Proof.Stage5.lean ====
/-
  Stage 5 of the idealized kernel: a row-tiled bias-and-clamp.

  The [50000, 512] array `A` (the aggregated messages) is cut into 25 blocks of 2000 rows; grid point `t` adds the
  one-row bias `b` ([1, 512], taken whole) to every row of block `t`, clamps below at zero, and writes the
  [2000, 512] block back as block `t` of the result (the result is stored as it is).  Entry
  (p, q) of a block is max (x(p, q) + b(0, q), 0), and row 2000·t + p of `A` is row p of block `t`; so the blocks
  are the restrictions of ONE function of the two arrays,
      biasClamp A b (i, j) = max (A (i, j) + b (0, j)) 0,
  and since the 25 blocks tile the result, the result array ends holding exactly that function.  The zero is kept
  as the float word it is written with: the same word stands on the other side of the comparison.  Everything
  is stated for arbitrary contents `V` of the buffers at the moment the stage is entered.
-/
import proofs.«150194_j37409165148770_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Stage5

open Cert.KernelIdeal Cert.KernelIdeal.Gen Idealize.ShloMosaic Idealize.ShloMosaic.TcCoe Idealize.SL.Sem
open Idealize.ShloMosaic.ValueIdx
open Idealize.ShloMosaic.Pipeline (Dat)

/-- A [50000, 512] array plus a one-row bias, clamped below at zero, entry by entry over the extended reals. -/
def biasClamp (A : FVec Ideal S50000x512 .f32) (b : FVec Ideal S1x512 .f32) : FVec Ideal S50000x512 .f32 :=
  fun i => max (A i + b (ix2 (0 : Fin 1) (⟨(i 1).val, (i 1).isLt⟩ : Fin 512))) (Ideal.ofBits .f32 0x00000000#32)

/-! ## One block, entry by entry -/

/-- What a grid point stores, at entry (p, q) of its block: max (x(p, q) + b(0, q), 0). -/
theorem block_entry (x : Vec Ideal S2000x512 .f32) (b : Vec Ideal S1x512 .f32) (p : Fin 2000) (q : Fin 512) :
    k5_pay1 (F := Ideal) x b (ix2 p q) = max (x (ix2 p q) + b (ix2 (0 : Fin 1) q)) (Ideal.ofBits .f32 0x00000000#32) := by
  unfold k5_pay1
  rw [shapeCast_self, shapeCast_self]
  show max (x (ix2 p q) + broadcastTo S2000x512 b broadcasts_S1x512_S2000x512 (ix2 p q)) (Ideal.ofBits .f32 0x00000000#32) = _
  rw [broadcastTo_1b_ab_apply]

/-! ## From the blocks to the array -/

variable (V : (c : Dev nD) → (b : Ref sig .tc) → Buf (Elt Ideal) ((c : Thread nD τ).loc b))

theorem offset_zero : (![0, 0] : Fin 2 → Nat) = fun _ => 0 := funext fun a => by fin_cases a <;> rfl

/-- How the three block index maps sit over the grid: the block of `A` is the result's, the bias is taken whole, and
    the result's blocks are the 25 row blocks of one column block. -/
theorem index_maps : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (1 : Fin 2) = 0
    ∧ win5_2.index t (0 : Fin 2) ≤ 24 :=
  (by decide +kernel : ∀ t : Fin grid5.N, _)

/-- Every row block of the result is some grid point's. -/
theorem row_block_onto : ∀ b : Fin 25, ∃ t : Fin cfg5.N, win5_2.index t = ![b.val, 0] :=
  (by decide +kernel : ∀ b : Fin 25, ∃ t : Fin grid5.N, win5_2.index t = ![b.val, 0])

/-- What grid point `t` writes back is block `t` of the bias-and-clamp of the two arrays as the stage finds them. -/
theorem flushed_eq (c : Dev nD) (t : Fin cfg5.N) :
    (dat5 V c).flushed 2 t = ((cfg5.win 2).blk t).view.read (Elt Ideal) (biasClamp (V c main_v77) (V c main_v78)) := by
  show (cfg5.win 2).cut (grid5.coords t) ((dat5 V c).after 2 t) = _
  rw [after5_2]
  unfold out5_2
  rw [View.canon_unit_zero offset_zero]
  simp only [View.ld_unit_zero (S := S2000x512) offset_zero, View.ld_unit_zero (S := S1x512) offset_zero]
  obtain ⟨e0, e1, e2, e3, e4, e5⟩ := index_maps t
  funext j
  obtain ⟨p, q, rfl⟩ : ∃ (p : Fin 2000) (q : Fin 512), j = ix2 p q := ⟨j 0, j 1, eq_ix2 j⟩
  show k5_pay1 (F := Ideal) (iblk5 V c 0 t) (iblk5 V c 1 t) (ix2 p q) = biasClamp (V c main_v77) (V c main_v78) (((cfg5.win 2).blk t).view.emb (ix2 p q))
  refine (block_entry (iblk5 V c 0 t) (iblk5 V c 1 t) p q).trans ?_
  unfold biasClamp
  have hA : iblk5 V c 0 t (ix2 p q) = V c main_v77 (((cfg5.win 2).blk t).view.emb (ix2 p q)) := by
    show V c main_v77 (((cfg5.win 0).blk t).view.emb (ix2 p q)) = _
    refine congrArg (V c main_v77) (funext fun a => Fin.ext ?_)
    match a with
    | ⟨0, _⟩ => show win5_0.index t (0 : Fin 2) * 2000 + 1 * p.val = win5_2.index t (0 : Fin 2) * 2000 + 1 * p.val; omega
    | ⟨1, _⟩ => show win5_0.index t (1 : Fin 2) * 512 + 1 * q.val = win5_2.index t (1 : Fin 2) * 512 + 1 * q.val; omega
  have hB : iblk5 V c 1 t (ix2 (0 : Fin 1) q) = V c main_v78 (ix2 (0 : Fin 1) (⟨((((cfg5.win 2).blk t).view.emb (ix2 p q)) 1).val, ((((cfg5.win 2).blk t).view.emb (ix2 p q)) 1).isLt⟩ : Fin 512)) := by
    show V c main_v78 (((cfg5.win 1).blk t).view.emb (ix2 (0 : Fin 1) q)) = _
    refine congrArg (V c main_v78) (funext fun a => Fin.ext ?_)
    match a with
    | ⟨0, _⟩ => show win5_1.index t (0 : Fin 2) * 1 + 1 * 0 = 0; omega
    | ⟨1, _⟩ => show win5_1.index t (1 : Fin 2) * 512 + 1 * q.val = win5_2.index t (1 : Fin 2) * 512 + 1 * q.val; omega
  rw [hA, hB]

/-- An index of the result is in point `t`'s block iff each coordinate is in the block's range on its axis. -/
theorem mem_block (t : Fin cfg5.N) (i : S50000x512.Idx) :
    i ∈ ((cfg5.win 2).blk t).view.set ↔ ∀ a : Fin 2, win5_2.index t a * S2000x512.size a ≤ (i a).val ∧ (i a).val < win5_2.index t a * S2000x512.size a + S2000x512.size a := by
  show i ∈ ((View.whole main_v79).slice (win5_2.rect t)).set ↔ _
  rw [View.set_slice_whole, Rect.mem_set_unit]
  exact Iff.rfl

/-- The 25 row blocks tile the result: row r lies in block r / 2000. -/
theorem covered (i : S50000x512.Idx) : ∃ t : Fin cfg5.N, (cfg5.win 2).flush t = true ∧ i ∈ ((cfg5.win 2).blk t).view.set := by
  have hi0 : (i 0).val < 50000 := (i 0).isLt
  have hi1 : (i 1).val < 512 := (i 1).isLt
  obtain ⟨t, ht⟩ := row_block_onto ⟨(i 0).val / 2000, by omega⟩
  have q0 : win5_2.index t (0 : Fin 2) = (i 0).val / 2000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 512 ≤ (i 1).val ∧ (i 1).val < win5_2.index t (1 : Fin 2) * 512 + 512; omega

/-- After the stage the result array is the bias-and-clamp of the two arrays the stage was entered with. -/
theorem result (c : Dev nD) : (dat5 V c).arrAt 2 cfg5.N = biasClamp (V c main_v77) (V c main_v78) :=
  (dat5 V c).arrAt_eq_of_cover 2 _ (fun t _ => flushed_eq V c t) (covered)

end Cert.KernelIdeal.Stage5

end
-- ==== Proof.Bridge.lean ====
/-
  The idealized kernel's stages against the reference's operations, entry by entry.

  Over the extended reals the kernel's row-tiled product of `A` with a matrix rounded to bf16 is the reference's
  `dot_general` of `A` with the matrix itself: rounding is the identity there, and both are the sum over the
  contracted axis of the same products.  Likewise the kernel's bias-and-clamp with the bias reshaped [n] → [1, n]
  is the reference's `maximum (A + broadcast b, 0)`: the reshape and the two broadcasts all read the bias at the
  column index, and the zero is the same float word on both sides.  The lemmas are stated for arbitrary operands, so
  that no layer's aggregation is ever opened.
-/
import proofs.«150194_j37409165148770_1_alg».proof.Proof.Stage0
import proofs.«150194_j37409165148770_1_alg».proof.Proof.Stage1
import proofs.«150194_j37409165148770_1_alg».proof.Proof.Stage2
import proofs.«150194_j37409165148770_1_alg».proof.Proof.Stage3
import proofs.«150194_j37409165148770_1_alg».proof.Proof.Stage4
import proofs.«150194_j37409165148770_1_alg».proof.Proof.Stage5
import proofs.«150194_j37409165148770_1_alg».proof.Proof.Gen.ReferenceIdeal.Read
import Idealize.ShloMosaic.Lib.ValueLayout

set_option maxRecDepth 16384

noncomputable section

namespace Cert.Bridge

open Idealize.ShloMosaic Idealize.ShloMosaic.TcCoe Idealize.ShloMosaic.ValueIdx

/-! ## The three products -/

/-- Stage 0's product, with the right operand rounded to bf16 on the host beforehand, is entry by entry the sum the
    reference's matrix product is: the same terms x(i, k) · w(k, j) over the same k. -/
theorem product0_apply (A : FVec Ideal Cert.KernelIdeal.S50000x128 .f32) (B : FVec Ideal Cert.KernelIdeal.S128x128 .f32) (i : Cert.ReferenceIdeal.S50000x128.Idx) :
    Cert.KernelIdeal.Stage0.product A (truncf .bf16 B Cert.KernelIdeal.Gen.bitsLt_bf16_f32) i
      = ∑ k : Fin 128, A (Cert.ReferenceIdeal.Read.lidx_main_v29 i k) * B (Cert.ReferenceIdeal.Read.ridx_main_v29 i k) := by
  unfold Cert.KernelIdeal.Stage0.product
  refine Finset.sum_congr rfl fun k _ => ?_
  have el : (ix2 (⟨(i 0).val, (i 0).isLt⟩ : Fin 50000) k : Cert.KernelIdeal.S50000x128.Idx) = Cert.ReferenceIdeal.Read.lidx_main_v29 i k :=
    funext fun a => by match a with | ⟨0, _⟩ => rfl | ⟨1, _⟩ => rfl
  have er : (ix2 k (⟨(i 1).val, (i 1).isLt⟩ : Fin 128) : Cert.KernelIdeal.S128x128.Idx) = Cert.ReferenceIdeal.Read.ridx_main_v29 i k :=
    funext fun a => by match a with | ⟨0, _⟩ => rfl | ⟨1, _⟩ => rfl
  rw [el, er]
  rfl

/-- Stage 2's product, with the right operand rounded to bf16 on the host beforehand, is entry by entry the sum the
    reference's matrix product is: the same terms x(i, k) · w(k, j) over the same k. -/
theorem product2_apply (A : FVec Ideal Cert.KernelIdeal.S50000x128 .bf16) (B : FVec Ideal Cert.KernelIdeal.S128x256 .f32) (i : Cert.ReferenceIdeal.S50000x256.Idx) :
    Cert.KernelIdeal.Stage2.product A (truncf .bf16 B Cert.KernelIdeal.Gen.bitsLt_bf16_f32) i
      = ∑ k : Fin 128, A (Cert.ReferenceIdeal.Read.lidx_main_v47 i k) * B (Cert.ReferenceIdeal.Read.ridx_main_v47 i k) := by
  unfold Cert.KernelIdeal.Stage2.product
  refine Finset.sum_congr rfl fun k _ => ?_
  have el : (ix2 (⟨(i 0).val, (i 0).isLt⟩ : Fin 50000) k : Cert.KernelIdeal.S50000x128.Idx) = Cert.ReferenceIdeal.Read.lidx_main_v47 i k :=
    funext fun a => by match a with | ⟨0, _⟩ => rfl | ⟨1, _⟩ => rfl
  have er : (ix2 k (⟨(i 1).val, (i 1).isLt⟩ : Fin 256) : Cert.KernelIdeal.S128x256.Idx) = Cert.ReferenceIdeal.Read.ridx_main_v47 i k :=
    funext fun a => by match a with | ⟨0, _⟩ => rfl | ⟨1, _⟩ => rfl
  rw [el, er]
  rfl

/-- Stage 4's product, with the right operand rounded to bf16 on the host beforehand, is entry by entry the sum the
    reference's matrix product is: the same terms x(i, k) · w(k, j) over the same k. -/
theorem product4_apply (A : FVec Ideal Cert.KernelIdeal.S50000x256 .bf16) (B : FVec Ideal Cert.KernelIdeal.S256x512 .f32) (i : Cert.ReferenceIdeal.S50000x512.Idx) :
    Cert.KernelIdeal.Stage4.product A (truncf .bf16 B Cert.KernelIdeal.Gen.bitsLt_bf16_f32) i
      = ∑ k : Fin 256, A (Cert.ReferenceIdeal.Read.lidx_main_v65 i k) * B (Cert.ReferenceIdeal.Read.ridx_main_v65 i k) := by
  unfold Cert.KernelIdeal.Stage4.product
  refine Finset.sum_congr rfl fun k _ => ?_
  have el : (ix2 (⟨(i 0).val, (i 0).isLt⟩ : Fin 50000) k : Cert.KernelIdeal.S50000x256.Idx) = Cert.ReferenceIdeal.Read.lidx_main_v65 i k :=
    funext fun a => by match a with | ⟨0, _⟩ => rfl | ⟨1, _⟩ => rfl
  have er : (ix2 k (⟨(i 1).val, (i 1).isLt⟩ : Fin 512) : Cert.KernelIdeal.S256x512.Idx) = Cert.ReferenceIdeal.Read.ridx_main_v65 i k :=
    funext fun a => by match a with | ⟨0, _⟩ => rfl | ⟨1, _⟩ => rfl
  rw [el, er]
  rfl

/-! ## The three bias-and-clamps -/

/-- Stage 1's bias-and-clamp, with the bias reshaped to one row on the host beforehand, is entry by entry the reference's
    maximum of (the array plus the bias broadcast over the rows) and the zero splat. -/
theorem biasClamp1_apply (A : FVec Ideal Cert.KernelIdeal.S50000x128 .f32) (b : FVec Ideal Cert.KernelIdeal.S128 .f32) (i : Cert.ReferenceIdeal.S50000x128.Idx) :
    Cert.KernelIdeal.Stage1.biasClamp A (shapeCast Cert.KernelIdeal.S1x128 b Cert.KernelIdeal.Gen.shapeCasts_S128_S1x128) i
      = FloatOps.maximumf (FloatOps.addf (A i) (Cert.ReferenceIdeal.Read.val_main_v44 (F := Ideal) b i)) (Cert.ReferenceIdeal.Read.val_main_call0_v0 (F := Ideal) i) := by
  rw [Cert.ReferenceIdeal.Read.val_main_v44_apply, Cert.ReferenceIdeal.Read.val_main_v43_apply, Cert.ReferenceIdeal.Read.val_main_call0_v0_apply, Cert.ReferenceIdeal.Read.val_main_call0_cst_apply]
  unfold Cert.KernelIdeal.Stage1.biasClamp
  rw [shapeCast_a_1a_apply]
  have eb : (ix1 (⟨(i 1).val, (i 1).isLt⟩ : Fin 128) : Cert.KernelIdeal.S128.Idx) = Cert.ReferenceIdeal.Read.idx_main_v43 (Cert.ReferenceIdeal.Read.idx_main_v44 i) :=
    funext fun a => by match a with | ⟨0, _⟩ => rfl
  rw [eb]
  rfl

/-- Stage 3's bias-and-clamp, with the bias reshaped to one row on the host beforehand, is entry by entry the reference's
    maximum of (the array plus the bias broadcast over the rows) and the zero splat. -/
theorem biasClamp3_apply (A : FVec Ideal Cert.KernelIdeal.S50000x256 .f32) (b : FVec Ideal Cert.KernelIdeal.S256 .f32) (i : Cert.ReferenceIdeal.S50000x256.Idx) :
    Cert.KernelIdeal.Stage3.biasClamp A (shapeCast Cert.KernelIdeal.S1x256 b Cert.KernelIdeal.Gen.shapeCasts_S256_S1x256) i
      = FloatOps.maximumf (FloatOps.addf (A i) (Cert.ReferenceIdeal.Read.val_main_v62 (F := Ideal) b i)) (Cert.ReferenceIdeal.Read.val_main_call1_v0 (F := Ideal) i) := by
  rw [Cert.ReferenceIdeal.Read.val_main_v62_apply, Cert.ReferenceIdeal.Read.val_main_v61_apply, Cert.ReferenceIdeal.Read.val_main_call1_v0_apply, Cert.ReferenceIdeal.Read.val_main_call1_cst_apply]
  unfold Cert.KernelIdeal.Stage3.biasClamp
  rw [shapeCast_a_1a_apply]
  have eb : (ix1 (⟨(i 1).val, (i 1).isLt⟩ : Fin 256) : Cert.KernelIdeal.S256.Idx) = Cert.ReferenceIdeal.Read.idx_main_v61 (Cert.ReferenceIdeal.Read.idx_main_v62 i) :=
    funext fun a => by match a with | ⟨0, _⟩ => rfl
  rw [eb]
  rfl

/-- Stage 5's bias-and-clamp, with the bias reshaped to one row on the host beforehand, is entry by entry the reference's
    maximum of (the array plus the bias broadcast over the rows) and the zero splat. -/
theorem biasClamp5_apply (A : FVec Ideal Cert.KernelIdeal.S50000x512 .f32) (b : FVec Ideal Cert.KernelIdeal.S512 .f32) (i : Cert.ReferenceIdeal.S50000x512.Idx) :
    Cert.KernelIdeal.Stage5.biasClamp A (shapeCast Cert.KernelIdeal.S1x512 b Cert.KernelIdeal.Gen.shapeCasts_S512_S1x512) i
      = FloatOps.maximumf (FloatOps.addf (A i) (Cert.ReferenceIdeal.Read.val_main_v80 (F := Ideal) b i)) (Cert.ReferenceIdeal.Read.val_main_call2_v0 (F := Ideal) i) := by
  rw [Cert.ReferenceIdeal.Read.val_main_v80_apply, Cert.ReferenceIdeal.Read.val_main_v79_apply, Cert.ReferenceIdeal.Read.val_main_call2_v0_apply, Cert.ReferenceIdeal.Read.val_main_call2_cst_apply]
  unfold Cert.KernelIdeal.Stage5.biasClamp
  rw [shapeCast_a_1a_apply]
  have eb : (ix1 (⟨(i 1).val, (i 1).isLt⟩ : Fin 512) : Cert.KernelIdeal.S512.Idx) = Cert.ReferenceIdeal.Read.idx_main_v79 (Cert.ReferenceIdeal.Read.idx_main_v80 i) :=
    funext fun a => by match a with | ⟨0, _⟩ => rfl
  rw [eb]
  rfl

end Cert.Bridge

end
-- ==== Proof.Chain.lean ====
/-
  The idealized kernel's result, followed through its twelve segments, is the reference's result.

  With the eight argument arrays as launched, the buffer contents at each segment boundary are read in the
  reference's own words (its operations as stages of the arguments).  Per layer: the tiled product leaves the
  reference's matrix product of the previous activations with the layer's weights; the host stretch that follows
  applies to it — and to the edge sources, targets and weights, which still hold what the first stretch made — the very
  gather / scale / scatter-add the reference applies, and reshapes the bias to a row; the tiled bias-and-clamp then leaves
  the reference's `maximum (aggregate + bias, 0)`; and, between layers, one host operation rounds the next weight
  matrix to bf16, which changes nothing over the extended reals.  After three layers the last boundary's contents at
  the result buffer are the reference's result stage.
-/
import proofs.«150194_j37409165148770_1_alg».proof.Proof.Carry
import proofs.«150194_j37409165148770_1_alg».proof.Proof.Entry
import proofs.«150194_j37409165148770_1_alg».proof.Proof.Bridge

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## Layer 1 -/

/-- Layer 1's product: the kernel's tiled stage leaves the reference's `dot_general` of the same two operands. -/
theorem h1 : W2 m ρ c (Proc.devRef .tc main_v30) = val_main_v29 (F := Ideal) (m ((c : Thread nD τ).loc main_arg0)) (m ((c : Thread nD τ).loc main_arg2)) := by
  have hA : V1 m ρ c main_arg0 = (m ((c : Thread nD τ).loc main_arg0)) := Entry.feat_kept m ρ c
  have hB : V1 m ρ c main_v29 = (truncf .bf16 ((m ((c : Thread nD τ).loc main_arg2)) : FVec Ideal S128x128 .f32) bitsLt_bf16_f32 : FVec Ideal S128x128 .bf16) := Entry.w1_made m ρ c
  refine ((W2_arr m ρ c 2).trans (Stage0.result (V1 m ρ) c)).trans ((congrArg₂ Stage0.product hA hB).trans ?_)
  funext i
  exact (Cert.Bridge.product0_apply _ _ i).trans (val_main_v29_apply (m ((c : Thread nD τ).loc main_arg0)) (m ((c : Thread nD τ).loc main_arg2)) i).symm

/-- Layer 1's aggregation: gather the product's rows at the edge sources, scale by the edge weights, add into the rows at the
    edge targets — the same host operations on both sides, applied to equal operands. -/
theorem agg1 : W3 m ρ c (Proc.devRef .tc main_v43) = val_main_v42 (F := Ideal) (m ((c : Thread nD τ).loc main_arg0)) (m ((c : Thread nD τ).loc main_arg1)) (m ((c : Thread nD τ).loc main_arg2)) := by
  show StableHlo.after hostOps1 (W2 m ρ c) (Proc.devRef .tc main_v43) = _
  after_results_simp
  rw [h1 m ρ c, (Carry.src_at2 m ρ c).trans (Entry.src_made m ρ c), (Carry.dst_at2 m ρ c).trans (Entry.dst_made m ρ c),
    (Carry.nrm_at2 m ρ c).trans (Entry.nrm_made m ρ c)]
  rfl

/-- Layer 1's bias as one row. -/
theorem row1 : W3 m ρ c (Proc.devRef .tc main_v44) = (shapeCast S1x128 ((m ((c : Thread nD τ).loc main_arg3)) : FVec Ideal S128 .f32) shapeCasts_S128_S1x128 : FVec Ideal S1x128 .f32) := by
  show StableHlo.after hostOps1 (W2 m ρ c) (Proc.devRef .tc main_v44) = _
  after_results_simp
  rw [Carry.arg3_at2 m ρ c]
  rfl

/-- Layer 1's activations: the kernel's tiled bias-and-clamp leaves the reference's `maximum (aggregate + bias, 0)`. -/
theorem act1 : W4 m ρ c (Proc.devRef .tc main_v45) = val_main_v46 (F := Ideal) (m ((c : Thread nD τ).loc main_arg0)) (m ((c : Thread nD τ).loc main_arg1)) (m ((c : Thread nD τ).loc main_arg2)) (m ((c : Thread nD τ).loc main_arg3)) := by
  have hA : V3 m ρ c main_v43 = val_main_v42 (F := Ideal) (m ((c : Thread nD τ).loc main_arg0)) (m ((c : Thread nD τ).loc main_arg1)) (m ((c : Thread nD τ).loc main_arg2)) := agg1 m ρ c
  have hB : V3 m ρ c main_v44 = (shapeCast S1x128 ((m ((c : Thread nD τ).loc main_arg3)) : FVec Ideal S128 .f32) shapeCasts_S128_S1x128 : FVec Ideal S1x128 .f32) := row1 m ρ c
  refine ((W4_arr m ρ c 2).trans (Stage1.result (V3 m ρ) c)).trans ((congrArg₂ Stage1.biasClamp hA hB).trans ?_)
  funext i
  exact (Cert.Bridge.biasClamp1_apply _ _ i).trans rfl

/-! ## Layer 2 -/

/-- Layer 2's weight matrix, rounded to bf16 by the one host operation before its product. -/
theorem w2_made : W5 m ρ c (Proc.devRef .tc main_v46) = (truncf .bf16 ((m ((c : Thread nD τ).loc main_arg4)) : FVec Ideal S128x256 .f32) bitsLt_bf16_f32 : FVec Ideal S128x256 .bf16) := by
  show StableHlo.after hostOps2 (W4 m ρ c) (Proc.devRef .tc main_v46) = _
  after_results_simp
  rw [Carry.arg4_at4 m ρ c]

/-- Layer 2's product: the kernel's tiled stage leaves the reference's `dot_general` of the same two operands. -/
theorem h2 : W6 m ρ c (Proc.devRef .tc main_v47) = val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have hA : V5 m ρ c main_v45 = val_main_v46 (F := Ideal) (m ((c : Thread nD τ).loc main_arg0)) (m ((c : Thread nD τ).loc main_arg1)) (m ((c : Thread nD τ).loc main_arg2)) (m ((c : Thread nD τ).loc main_arg3)) := (Carry.act1_step5 m ρ c).trans (act1 m ρ c)
  have hB : V5 m ρ c main_v46 = (truncf .bf16 ((m ((c : Thread nD τ).loc main_arg4)) : FVec Ideal S128x256 .f32) bitsLt_bf16_f32 : FVec Ideal S128x256 .bf16) := w2_made m ρ c
  refine ((W6_arr m ρ c 2).trans (Stage2.result (V5 m ρ) c)).trans ((congrArg₂ Stage2.product hA hB).trans ?_)
  funext i
  exact (Cert.Bridge.product2_apply _ _ i).trans (val_main_v47_apply (m ((c : Thread nD τ).loc main_arg0)) (m ((c : Thread nD τ).loc main_arg1)) (m ((c : Thread nD τ).loc main_arg2)) (m ((c : Thread nD τ).loc main_arg3)) (m ((c : Thread nD τ).loc main_arg4)) i).symm

/-- Layer 2's aggregation: gather the product's rows at the edge sources, scale by the edge weights, add into the rows at the
    edge targets — the same host operations on both sides, applied to equal operands. -/
theorem agg2 : W7 m ρ c (Proc.devRef .tc main_v60) = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W6 m ρ c) (Proc.devRef .tc main_v60) = _
  after_results_simp
  rw [h2 m ρ c, (Carry.src_at6 m ρ c).trans (Entry.src_made m ρ c), (Carry.dst_at6 m ρ c).trans (Entry.dst_made m ρ c),
    (Carry.nrm_at6 m ρ c).trans (Entry.nrm_made m ρ c)]
  rfl

/-- Layer 2's bias as one row. -/
theorem row2 : W7 m ρ c (Proc.devRef .tc main_v61) = (shapeCast S1x256 ((m ((c : Thread nD τ).loc main_arg5)) : FVec Ideal S256 .f32) shapeCasts_S256_S1x256 : FVec Ideal S1x256 .f32) := by
  show StableHlo.after hostOps3 (W6 m ρ c) (Proc.devRef .tc main_v61) = _
  after_results_simp
  rw [Carry.arg5_at6 m ρ c]
  rfl

/-- Layer 2's activations: the kernel's tiled bias-and-clamp leaves the reference's `maximum (aggregate + bias, 0)`. -/
theorem act2 : W8 m ρ c (Proc.devRef .tc main_v62) = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have hA : V7 m ρ c main_v60 = val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := agg2 m ρ c
  have hB : V7 m ρ c main_v61 = (shapeCast S1x256 ((m ((c : Thread nD τ).loc main_arg5)) : FVec Ideal S256 .f32) shapeCasts_S256_S1x256 : FVec Ideal S1x256 .f32) := row2 m ρ c
  refine ((W8_arr m ρ c 2).trans (Stage3.result (V7 m ρ) c)).trans ((congrArg₂ Stage3.biasClamp hA hB).trans ?_)
  funext i
  exact (Cert.Bridge.biasClamp3_apply _ _ i).trans rfl

/-! ## Layer 3 -/

/-- Layer 3's weight matrix, rounded to bf16 by the one host operation before its product. -/
theorem w3_made : W9 m ρ c (Proc.devRef .tc main_v63) = (truncf .bf16 ((m ((c : Thread nD τ).loc main_arg6)) : FVec Ideal S256x512 .f32) bitsLt_bf16_f32 : FVec Ideal S256x512 .bf16) := by
  show StableHlo.after hostOps4 (W8 m ρ c) (Proc.devRef .tc main_v63) = _
  after_results_simp
  rw [Carry.arg6_at8 m ρ c]

/-- Layer 3's product: the kernel's tiled stage leaves the reference's `dot_general` of the same two operands. -/
theorem h3 : W10 m ρ c (Proc.devRef .tc main_v64) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have hA : V9 m ρ c main_v62 = val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := (Carry.act2_step9 m ρ c).trans (act2 m ρ c)
  have hB : V9 m ρ c main_v63 = (truncf .bf16 ((m ((c : Thread nD τ).loc main_arg6)) : FVec Ideal S256x512 .f32) bitsLt_bf16_f32 : FVec Ideal S256x512 .bf16) := w3_made m ρ c
  refine ((W10_arr m ρ c 2).trans (Stage4.result (V9 m ρ) c)).trans ((congrArg₂ Stage4.product hA hB).trans ?_)
  funext i
  exact (Cert.Bridge.product4_apply _ _ i).trans (val_main_v65_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i).symm

/-- Layer 3's aggregation: gather the product's rows at the edge sources, scale by the edge weights, add into the rows at the
    edge targets — the same host operations on both sides, applied to equal operands. -/
theorem agg3 : W11 m ρ c (Proc.devRef .tc main_v77) = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W10 m ρ c) (Proc.devRef .tc main_v77) = _
  after_results_simp
  rw [h3 m ρ c, (Carry.src_at10 m ρ c).trans (Entry.src_made m ρ c), (Carry.dst_at10 m ρ c).trans (Entry.dst_made m ρ c),
    (Carry.nrm_at10 m ρ c).trans (Entry.nrm_made m ρ c)]
  rfl

/-- Layer 3's bias as one row. -/
theorem row3 : W11 m ρ c (Proc.devRef .tc main_v78) = (shapeCast S1x512 ((m ((c : Thread nD τ).loc main_arg7)) : FVec Ideal S512 .f32) shapeCasts_S512_S1x512 : FVec Ideal S1x512 .f32) := by
  show StableHlo.after hostOps5 (W10 m ρ c) (Proc.devRef .tc main_v78) = _
  after_results_simp
  rw [Carry.arg7_at10 m ρ c]
  rfl

/-- Layer 3's activations: the kernel's tiled bias-and-clamp leaves the reference's `maximum (aggregate + bias, 0)`. -/
theorem act3 : W12 m ρ c (Proc.devRef .tc main_v79) = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  have hA : V11 m ρ c main_v77 = val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := agg3 m ρ c
  have hB : V11 m ρ c main_v78 = (shapeCast S1x512 ((m ((c : Thread nD τ).loc main_arg7)) : FVec Ideal S512 .f32) shapeCasts_S512_S1x512 : FVec Ideal S1x512 .f32) := row3 m ρ c
  refine ((W12_arr m ρ c 2).trans (Stage5.result (V11 m ρ) c)).trans ((congrArg₂ Stage5.biasClamp hA hB).trans ?_)
  funext i
  exact (Cert.Bridge.biasClamp5_apply _ _ i).trans rfl

end Cert.KernelIdeal.Chain

end
-- ==== Proof.lean ====
/-
  The certificate's five claims for a three-layer graph convolution.

  The kernel computes, three times over, x ↦ max (Â · (x · W) + b, 0): a row-tiled matrix product with the layer's
  weights, a normalised neighbourhood sum Â (gather the product's rows at the edge sources, scale by the edge weights
  1/√(deg src · deg dst), add into the rows at the edge targets; every node also has a self-loop), and a row-tiled
  bias-and-clamp.  The two tiled stages of each layer run on the accelerator; the neighbourhood sum and the edge
  weights are host operations, the same ones the reference uses.  The reference does all of it on the host.

  Frames: the two kernel programs' runs terminate, fault-free, with their arguments unchanged by the generated frame
  proofs; the reference's by its generated run.  The idealization rewrote nothing, so `preserves` asks nothing.
  `algebraic`: over the extended reals rounding to bf16 is the identity, a tiled product into a zero accumulator is
  the plain sum of products the reference's `dot_general` is, and the tiled bias-and-clamp is the reference's
  `maximum (· + b, 0)`; the host operations between them are literally the reference's.  So the kernel's result,
  followed segment by segment from the launch memory, is the reference's result stage of the same arguments — no
  arithmetic law beyond 0 + s = s is used, and the finiteness of the inputs is never needed.
-/
import proofs.«150194_j37409165148770_1_alg».proof.Defs
import proofs.«150194_j37409165148770_1_alg».proof.Proof.Gen.Kernel
import proofs.«150194_j37409165148770_1_alg».proof.Proof.Gen.Kernel.Skeleton
import proofs.«150194_j37409165148770_1_alg».proof.Proof.Gen.Kernel.Launch
import proofs.«150194_j37409165148770_1_alg».proof.Proof.Gen.Kernel.Points
import proofs.«150194_j37409165148770_1_alg».proof.Proof.Gen.Kernel.Frame
import proofs.«150194_j37409165148770_1_alg».proof.Proof.Gen.KernelIdeal
import proofs.«150194_j37409165148770_1_alg».proof.Proof.Gen.KernelIdeal.Skeleton
import proofs.«150194_j37409165148770_1_alg».proof.Proof.Gen.KernelIdeal.Launch
import proofs.«150194_j37409165148770_1_alg».proof.Proof.Gen.KernelIdeal.Points
import proofs.«150194_j37409165148770_1_alg».proof.Proof.Gen.KernelIdeal.Frame
import proofs.«150194_j37409165148770_1_alg».proof.Proof.Gen.ReferenceIdeal
import proofs.«150194_j37409165148770_1_alg».proof.Proof.Gen.ReferenceIdeal.Run
import proofs.«150194_j37409165148770_1_alg».proof.Proof.Gen.ReferenceIdeal.Read
import proofs.«150194_j37409165148770_1_alg».proof.Proof.Gen.Pre_finite_inputs
import proofs.«150194_j37409165148770_1_alg».proof.Proof.KernelRun
import proofs.«150194_j37409165148770_1_alg».proof.Proof.Chain
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run ends with the result array at the reference's result stage of the launch arguments. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v79)
        = Cert.ReferenceIdeal.Read.val_main_v82 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun r h c => ⟨(h c).1.trans (Cert.KernelIdeal.Chain.act3 m ρ c), (h c).2⟩)
    (Cert.KernelIdeal.RunValue.run_named (F := Ideal) m ρ)

/-- Run from memories that agree on the arguments, the two idealized programs end with equal results: both hold the
    reference's result stage of the (common) arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v82_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
